-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S10 .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S10 .f32 := Host.absf main_arg7
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x64 .f32) (main_arg1 : IVec S1000000 32) (main_arg2 : IVec S1000000 32) (main_arg3 : IVec S100000 32) (main_arg4 : FVec F S64x64 .f32) (main_arg5 : FVec F S64 .f32) (main_arg6 : FVec F S64x10 .f32) (main_arg7 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x10 .f32 := Host.absf main_arg6
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg7 main_v13 main_v16
-- ==== Kernel.lean ====
abbrev S100000x64 : Shape := ⟨2, ![100000, 64]⟩
abbrev S1000000 : Shape := ⟨1, ![1000000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩
abbrev S1000000x1 : Shape := ⟨2, ![1000000, 1]⟩
abbrev S100000x1 : Shape := ⟨2, ![100000, 1]⟩
abbrev S2000x64 : Shape := ⟨2, ![2000, 64]⟩
abbrev S2000x1 : Shape := ⟨2, ![2000, 1]⟩
abbrev S1000000x64 : Shape := ⟨2, ![1000000, 64]⟩
abbrev S1x64 : Shape := ⟨2, ![1, 64]⟩
abbrev S1x10 : Shape := ⟨2, ![1, 10]⟩
abbrev S100000x10 : Shape := ⟨2, ![100000, 10]⟩
abbrev S2000x10 : Shape := ⟨2, ![2000, 10]⟩
abbrev S64x1 : Shape := ⟨2, ![64, 1]⟩

abbrev nBuf : Space → Nat
  | .hbm => 78
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S_, .f32⟩
  | .hbm, ⟨9, _⟩ => ⟨S1000000, .f32⟩
  | .hbm, ⟨10, _⟩ => ⟨S_, .f32⟩
  | .hbm, ⟨11, _⟩ => ⟨S100000, .f32⟩
  | .hbm, ⟨12, _⟩ => ⟨S1000000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S_, .f32⟩
  | .hbm, ⟨38, _⟩ => ⟨S100000x64, .f32⟩
  | .hbm, ⟨39, _⟩ => ⟨S1000000x1, .i32⟩
  | .hbm, ⟨40, _⟩ => ⟨S100000x64, .f32⟩
  | .hbm, ⟨41, _⟩ => ⟨S100000x1, .f32⟩
  | .hbm, ⟨42, _⟩ => ⟨S1x64, .f32⟩
  | .hbm, ⟨43, _⟩ => ⟨S100000x64, .f32⟩
  | .hbm, ⟨44, _⟩ => ⟨S100000x1, .f32⟩
  | .hbm, ⟨45, _⟩ => ⟨S100000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S100000x1, .f32⟩
  | .hbm, ⟨60, _⟩ => ⟨S1x10, .f32⟩
  | .hbm, ⟨61, _⟩ => ⟨S100000x10, .f32⟩
  | .hbm, ⟨62, _⟩ => ⟨S_, .f32⟩
  | .hbm, ⟨63, _⟩ => ⟨S64x10, .f32⟩
  | .hbm, ⟨64, _⟩ => ⟨S100000x1, .i32⟩
  | .hbm, ⟨65, _⟩ => ⟨S64x10, .f32⟩
  | .hbm, ⟨66, _⟩ => ⟨S_, .f32⟩
  | .hbm, ⟨67, _⟩ => ⟨S100000, .f32⟩
  | .hbm, ⟨68, _⟩ => ⟨S_, .f32⟩
  | .hbm, ⟨69, _⟩ => ⟨S64, .f32⟩
  | .hbm, ⟨70, _⟩ => ⟨S100000x1, .i32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64x1, .f32⟩
  | .hbm, ⟨76, _⟩ => ⟨S64x10, .f32⟩
  | .hbm, ⟨77, _⟩ => ⟨S64x10, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x1, .f32⟩
  | .local _ .vmem, ⟨9, _⟩ => ⟨S2000x1, .f32⟩
  | .local _ .vmem, ⟨10, _⟩ => ⟨S64x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x1, .f32⟩
  | .local _ .vmem, ⟨23, _⟩ => ⟨S2000x1, .f32⟩
  | .local _ .vmem, ⟨24, _⟩ => ⟨S64x10, .f32⟩
  | .local _ .vmem, ⟨25, _⟩ => ⟨S1x10, .f32⟩
  | .local _ .vmem, ⟨26, _⟩ => ⟨S2000x10, .f32⟩
  | .local _ .vmem, ⟨27, _⟩ => ⟨S2000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  bcast_S_S64x10 : S_.BroadcastsInDim S64x10 (![] : Fin 0 → Fin S64x10.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S2000x64_S64x64_S2000x64_1_0_0_1_n_n_wf : DotDims.WF S2000x64 S64x64 S2000x64 [1] [0] [0] [1] [] []
  dot_S2000x64_S64x10_S2000x10_1_0_0_1_n_n_wf : DotDims.WF S2000x64 S64x10 S2000x10 [1] [0] [0] [1] [] []
  scatter_S64x10_S100000x1_S100000x10_1_0_0_1_wf : ScatterDims.WF S64x10 S100000x1 S100000x10 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x10.size a ≤ S64x10.size a
  hwx3_2 : ∀ i : grid3.Coords, EltTy.bits .f32 = 32 ∨ (Rect.block (s := S64x10) S64x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x10.size a ≤ S100000x10.size a
  hwx3_4 : ∀ i : grid3.Coords, EltTy.bits .f32 = 32 ∨ (Rect.block (s := S100000x10) S2000x10.size (cc3_transform_4 i) (hinb3_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x10_S2000x10_1_0_0_1_n_n : DotDims S2000x64 S64x10 S2000x10 where
  lhsContracting := [1]
  rhsContracting := [0]
  lhsNonContracting := [0]
  rhsNonContracting := [1]
  lhsBatch := []
  rhsBatch := []
  wf := dot_S2000x64_S64x10_S2000x10_1_0_0_1_n_n_wf
def scatter_S64x10_S100000x1_S100000x10_1_0_0_1 : ScatterDims S64x10 S100000x1 S100000x10 where
  updateWindowDims := [1]
  insertedWindowDims := [0]
  scatterDimsToOperandDims := [0]
  indexVectorDim := 1
  wf := scatter_S64x10_S100000x1_S100000x10_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v39) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S2000x10.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S1000000 : Shape := ⟨1, ![1000000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S100000x10 : Shape := ⟨2, ![100000, 10]⟩
abbrev S1x10 : Shape := ⟨2, ![1, 10]⟩
abbrev S64x1 : Shape := ⟨2, ![64, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S_, .f32⟩
  | .hbm, ⟨9, _⟩ => ⟨S1000000, .f32⟩
  | .hbm, ⟨10, _⟩ => ⟨S_, .f32⟩
  | .hbm, ⟨11, _⟩ => ⟨S100000, .f32⟩
  | .hbm, ⟨12, _⟩ => ⟨S1000000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S100000x64, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .f32⟩
  | .hbm, ⟨38, _⟩ => ⟨S_, .f32⟩
  | .hbm, ⟨39, _⟩ => ⟨S100000x64, .f32⟩
  | .hbm, ⟨40, _⟩ => ⟨S1000000x1, .i32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x64, .f32⟩
  | .hbm, ⟨64, _⟩ => ⟨S_, .f32⟩
  | .hbm, ⟨65, _⟩ => ⟨S100000x64, .f32⟩
  | .hbm, ⟨66, _⟩ => ⟨S1000000x1, .i32⟩
  | .hbm, ⟨67, _⟩ => ⟨S100000x64, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x10, .f32⟩
  | .hbm, ⟨72, _⟩ => ⟨S1x10, .f32⟩
  | .hbm, ⟨73, _⟩ => ⟨S100000x10, .f32⟩
  | .hbm, ⟨74, _⟩ => ⟨S100000x10, .f32⟩
  | .hbm, ⟨75, _⟩ => ⟨S_, .f32⟩
  | .hbm, ⟨76, _⟩ => ⟨S64x10, .f32⟩
  | .hbm, ⟨77, _⟩ => ⟨S100000x1, .i32⟩
  | .hbm, ⟨78, _⟩ => ⟨S64x10, .f32⟩
  | .hbm, ⟨79, _⟩ => ⟨S_, .f32⟩
  | .hbm, ⟨80, _⟩ => ⟨S100000, .f32⟩
  | .hbm, ⟨81, _⟩ => ⟨S_, .f32⟩
  | .hbm, ⟨82, _⟩ => ⟨S64, .f32⟩
  | .hbm, ⟨83, _⟩ => ⟨S100000x1, .i32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64x1, .f32⟩
  | .hbm, ⟨89, _⟩ => ⟨S64x10, .f32⟩
  | .hbm, ⟨90, _⟩ => ⟨S64x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S64x10 : S_.BroadcastsInDim S64x10 (![] : Fin 0 → Fin S64x10.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []
  scatter_S64x10_S100000x1_S100000x10_1_0_0_1_wf : ScatterDims.WF S64x10 S100000x1 S100000x10 [1] [0] [0] 1
  scatter_S64_S100000x1_S100000_n_0_0_1_wf : ScatterDims.WF S64 S100000x1 S100000 [] [0] [0] 1

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def scatter_S64x10_S100000x1_S100000x10_1_0_0_1 : ScatterDims S64x10 S100000x1 S100000x10 where
  updateWindowDims := [1]
  insertedWindowDims := [0]
  scatterDimsToOperandDims := [0]
  indexVectorDim := 1
  wf := scatter_S64x10_S100000x1_S100000x10_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.ValueRun.lean ====
/-
  The kernel program's run with its result named.

  @main of the tiled program is nine segments: five stretches of host operations with the four tiled regions
  between them. The buffer contents at the boundaries are a fold from the launch memory: after a stretch of host
  operations they are the operations applied to the contents before it; after a region they are the contents at
  its entry with the region's output array replaced by what its grid points wrote back. The generated frame runs
  @main through these segments and keeps, of the last boundary's contents, only that the arguments are as
  launched. The same run is stated here keeping one fact more: the result buffer ends at the last boundary's
  contents. The segments themselves (how each region is entered and left, what the pipelines own, the launch)
  are those of the imported frame module; only the reading of the final state differs.
-/
import proofs.«172354_j88639535055109_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    fold through @main's nine segments ends with (`W9`: the last stretch of host operations applied to the
    contents at the last region's exit), and with the argument arrays as launched. -/
theorem run : θ_run defs (onTc (τ := τ) (main (F := F))) ⟨m, fun _ => 0, ρ⟩ (fun r => ∀ c : Dev nD,
      r.2.mem ((c.tc : Thread nD τ).loc main_v54) = W9 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v54 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.ValueRun

end
-- ==== Proof.Spec.lean ====
/-
  The dense stages of the two-layer graph convolution, each as one function of whole arrays.

  Both programs compute, with D_out and D_in the out- and in-degrees clamped below by 1,
      h   = relu ((D_in^(-1/2) · Aᵀ (D_out^(-1/2) · x)) W1 + b1),
      out = (D_in^(-1/2) · Aᵀ (D_out^(-1/2) · h)) W2 + b2,
  followed by a mean over the nodes of each graph. The degree counts, the product with Aᵀ (a gather of rows along
  the edges' sources followed by a scatter-add at the edges' destinations) and the mean are the same host
  operations in both programs. The stages between them are the ones below: a matrix whose row r is multiplied by
  the r-th entry of a column, and a product with a weight matrix plus a bias row, with or without the clamp at 0.
  They are written with the host operations the reference applies, over the reference's shapes; a tiled kernel
  computes the same arrays block of rows by block of rows.
-/
import proofs.«172354_j88639535055109_1_alg».proof.ReferenceIdeal
import proofs.«172354_j88639535055109_1_alg».proof.Proof.Gen.ReferenceIdeal
import Idealize.ShloMosaic.PureOps.Ideal

noncomputable section

namespace Cert.Spec

open Idealize.ShloMosaic Cert.ReferenceIdeal Cert.ReferenceIdeal.Facts₀

/-- A float array of shape `s` on the extended reals. -/
abbrev Arr (s : Shape) : Type := FVec Ideal s .f32

/-- Row r of `x` multiplied by entry (r, 0) of the column `col`. -/
def scaleRows (x : Arr S100000x64) (col : Arr S100000x1) : Arr S100000x64 :=
  mulf (F := Ideal) x (broadcastInDim S100000x64 ![0, 1] bcast_S100000x1_S100000x64_0_1 col)

/-- The hidden layer before its clamp: (rows of `a` scaled by `col`) · `w` + the bias row `b` on every row. -/
def dense64 (a : Arr S100000x64) (col : Arr S100000x1) (w : Arr S64x64) (b : Arr S1x64) : Arr S100000x64 :=
  addf (F := Ideal) (Host.dotGeneral dot_S100000x64_S64x64_S100000x64_1_0_0_1_n_n none (scaleRows a col) w)
    (broadcastInDim S100000x64 ![0, 1] bcast_S1x64_S100000x64_0_1 b)

/-- The clamp at 0 of every entry. -/
def relu64 (y : Arr S100000x64) : Arr S100000x64 :=
  maximumf (F := Ideal) y (broadcastInDim S100000x64 ![] bcast_S_S100000x64 (constant (F := Ideal) S_ .f32 0x00000000#32))

/-- The output layer: (rows of `a` scaled by `col`) · `w` + the bias row `b` on every row. -/
def dense10 (a : Arr S100000x64) (col : Arr S100000x1) (w : Arr S64x10) (b : Arr S1x10) : Arr S100000x10 :=
  addf (F := Ideal) (Host.dotGeneral dot_S100000x64_S64x10_S100000x10_1_0_0_1_n_n none (scaleRows a col) w)
    (broadcastInDim S100000x10 ![0, 1] bcast_S1x10_S100000x10_0_1 b)

end Cert.Spec

end
-- ==== Proof.Model.lean ====
/-
  The whole computation as one function of the eight argument arrays, stage by stage.

  With `src`, `dst` the edges' endpoints, the out-degree of a node counts the edges that leave it and the
  in-degree those that arrive; both are clamped below by 1 and raised to the power -1/2. A layer scales the rows of
  its input by the out-degree factor, sums along the edges (row e of the gathered array is the scaled row of
  `src e`, and the scatter adds row e into row `dst e`), scales the rows of the sum by the in-degree factor,
  multiplies by the weight matrix and adds the bias. The first layer is clamped at 0. The rows of the second
  layer's result are averaged per graph: summed into row `graph_ids r` and divided by the number of nodes of that
  graph, clamped below by 1. Every stage is spelt with the host operations of the reference program, so the
  reference's result is this function by unfolding.
-/
import proofs.«172354_j88639535055109_1_alg».proof.Proof.Spec

noncomputable section

namespace Cert.Spec

open Idealize.ShloMosaic Cert.ReferenceIdeal Cert.ReferenceIdeal.Facts₀

/-- An array of 32-bit integers of shape `s`. -/
abbrev IArr (s : Shape) : Type := (⟨s, .i32⟩ : BufTy).Contents (Elt Ideal)

/-- The zero word and the word of 1.0, as arrays of any shape by broadcast. -/
abbrev zeros (s : Shape) (h : S_.BroadcastsInDim s (![] : Fin 0 → Fin s.rank)) : Arr s :=
  broadcastInDim s ![] h (constant (F := Ideal) S_ .f32 0x00000000#32)
abbrev ones (s : Shape) (h : S_.BroadcastsInDim s (![] : Fin 0 → Fin s.rank)) : Arr s :=
  broadcastInDim s ![] h (constant (F := Ideal) S_ .f32 0x3F800000#32)

/-- (max (number of edges e with `idx e` = node, 1))^(-1/2), per node. -/
def invSqrtDegree (idx : IArr S1000000) : Arr S100000 :=
  Host.rsqrt (F := Ideal) (maximumf (F := Ideal)
    (Host.scatterAdd (F := Ideal) scatter_S100000_S1000000x1_S1000000_n_0_0_1 (zeros S100000 bcast_S_S100000)
      (broadcastInDim S1000000x1 ![0] bcast_S1000000_S1000000x1_0 idx) (ones S1000000 bcast_S_S1000000))
    (ones S100000 bcast_S_S100000))

/-- A per-node vector as a column. -/
def column (v : Arr S100000) : Arr S100000x1 :=
  broadcastInDim S100000x1 ![0] bcast_S100000_S100000x1_0 v

/-- A negative index counts from the end: the gather's start indices. -/
def wrapIndex (src : IArr S1000000) : IArr S1000000 :=
  select (cmpi .slt src (broadcastInDim S1000000 ![] bcast_S_S1000000 (constantI S_ 32 0#32)))
    (addi src (broadcastInDim S1000000 ![] bcast_S_S1000000 (constantI S_ 32 100000#32))) src

/-- The sum along the edges: row e of the gathered array is row `src e` of `x`, added into row `dst e`. -/
def alongEdges (x : Arr S100000x64) (src dst : IArr S1000000) : Arr S100000x64 :=
  Host.scatterAdd (F := Ideal) scatter_S100000x64_S1000000x1_S1000000x64_1_0_0_1 (zeros S100000x64 bcast_S_S100000x64)
    (broadcastInDim S1000000x1 ![0] bcast_S1000000_S1000000x1_0 dst)
    (Host.gather gather_S100000x64_S1000000x1_S1000000x64_1_0_n_n_0_1_164 x
      (broadcastInDim S1000000x1 ![0] bcast_S1000000_S1000000x1_0 (wrapIndex src)))

/-- The bias vectors as rows. -/
def biasRow64 (b : Arr S64) : Arr S1x64 := broadcastInDim S1x64 ![1] bcast_S64_S1x64_1 b
def biasRow10 (b : Arr S10) : Arr S1x10 := broadcastInDim S1x10 ![1] bcast_S10_S1x10_1 b

/-- The mean of the rows of `y` over the nodes of each graph. -/
def graphMean (y : Arr S100000x10) (gid : IArr S100000) : Arr S64x10 :=
  Host.divf (F := Ideal)
    (Host.scatterAdd (F := Ideal) scatter_S64x10_S100000x1_S100000x10_1_0_0_1 (zeros S64x10 bcast_S_S64x10)
      (broadcastInDim S100000x1 ![0] bcast_S100000_S100000x1_0 gid) y)
    (broadcastInDim S64x10 ![0, 1] bcast_S64x1_S64x10_0_1 (broadcastInDim S64x1 ![0] bcast_S64_S64x1_0
      (maximumf (F := Ideal)
        (Host.scatterAdd (F := Ideal) scatter_S64_S100000x1_S100000_n_0_0_1 (zeros S64 bcast_S_S64)
          (broadcastInDim S100000x1 ![0] bcast_S100000_S100000x1_0 gid) (ones S100000 bcast_S_S100000))
        (ones S64 bcast_S_S64))))

/-- The hidden layer. -/
def hidden (x : Arr S100000x64) (src dst : IArr S1000000) (w1 : Arr S64x64) (b1 : Arr S64) : Arr S100000x64 :=
  relu64 (dense64 (alongEdges (scaleRows x (column (invSqrtDegree src))) src dst) (column (invSqrtDegree dst)) w1 (biasRow64 b1))

/-- The output layer's rows, one per node. -/
def logits (x : Arr S100000x64) (src dst : IArr S1000000) (w1 : Arr S64x64) (b1 : Arr S64) (w2 : Arr S64x10) (b2 : Arr S10) :
    Arr S100000x10 :=
  dense10 (alongEdges (scaleRows (hidden x src dst w1 b1) (column (invSqrtDegree src))) src dst) (column (invSqrtDegree dst)) w2 (biasRow10 b2)

/-- The result: the per-graph mean of the output layer. -/
def model (x : Arr S100000x64) (src dst : IArr S1000000) (gid : IArr S100000) (w1 : Arr S64x64) (b1 : Arr S64)
    (w2 : Arr S64x10) (b2 : Arr S10) : Arr S64x10 :=
  graphMean (logits x src dst w1 b1 w2 b2) gid

end Cert.Spec

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.LibVecColumn.lean ====
/-
  A vector as a column, two spellings, and a vector as a row. A vector v of length a becomes the column [a, 1] either by a reshape (a cast
  that keeps the row-major order) or by a broadcast that sends the vector's axis to the first axis of the column.
  Both read v(p) at the entry (p, 0), so they are the same array. This is the step between a per-row count reshaped to
  a column and the same count indexed with a new trailing axis. A vector of length b reshaped to the row [1, b] reads
  v(j) at (0, j): this is how a bias vector is handed to a kernel that adds it to every row of a block.
-/
import proofs.«172354_j88639535055109_1_alg».proof.Proof.LibColumn

noncomputable section

namespace Cert.LibVecColumn

open Idealize.ShloMosaic Idealize.ShloMosaic.ValueIdx

/-- The broadcast of a vector [a] along a new trailing unit axis reads, at (p, u), the vector at p: the vector's
    one axis is sent to the column's first axis, whose coordinate is p (and if a = 1 then p = 0 anyway). -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The reshape of a vector to a column and its broadcast along a new trailing axis are the same array. -/
theorem shapeCast_eq_broadcastInDim {α : Type} {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ ![0]) :
    shapeCast ⟨2, ![a, 1]⟩ x h₁ = broadcastInDim ⟨2, ![a, 1]⟩ ![0] h₂ x := by
  funext i
  obtain ⟨p, u, rfl⟩ : ∃ (p : Fin a) (u : Fin 1), i = ix2 p u := ⟨i 0, i 1, eq_ix2 i⟩
  rw [Cert.LibColumn.shapeCast_a_a1_apply, broadcastInDim_a_a1_apply]

/-- A vector [b] cast to a row [1, b] reads, at (u, j), the vector at j: the row-major position of (u, j) in [1, b]
    is u · b + j with u = 0, the position j of the vector's entry. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibVecColumn

end
-- ==== Proof.LibRowVector.lean ====
/-
  A vector as a row, two spellings. A vector v of length b becomes the row [1, b] either by a reshape (a cast that
  keeps the row-major order) or by a broadcast that sends the vector's axis to the second axis of the row. Both
  read v(j) at the entry (0, j), so they are the same array. This is the step between a bias vector reshaped to a
  row for a kernel that adds it to every row of a block, and the same vector indexed with a new leading axis.
-/
import proofs.«172354_j88639535055109_1_alg».proof.Proof.LibVecColumn

noncomputable section

namespace Cert.LibRowVector

open Idealize.ShloMosaic Idealize.ShloMosaic.ValueIdx

/-- The broadcast of a vector [b] along a new leading unit axis reads, at (u, j), the vector at j: the vector's one
    axis is sent to the row's second axis, whose coordinate is j (and if b = 1 then j = 0 anyway). -/
theorem broadcastInDim_b_1b_apply {α : Type} {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The reshape of a vector to a row and its broadcast along a new leading axis are the same array. -/
theorem shapeCast_eq_broadcastInDim {α : Type} {b : ℕ} (x : (⟨1, ![b]⟩ : Shape).Idx → α)
    (h₁ : (⟨1, ![b]⟩ : Shape).ShapeCasts ⟨2, ![1, b]⟩)
    (h₂ : (⟨1, ![b]⟩ : Shape).BroadcastsInDim ⟨2, ![1, b]⟩ ![1]) :
    shapeCast ⟨2, ![1, b]⟩ x h₁ = broadcastInDim ⟨2, ![1, b]⟩ ![1] h₂ x := by
  funext i
  obtain ⟨u, j, rfl⟩ : ∃ (u : Fin 1) (j : Fin b), i = ix2 u j := ⟨i 0, i 1, eq_ix2 i⟩
  rw [Cert.LibVecColumn.shapeCast_b_1b_apply, broadcastInDim_b_1b_apply]

end Cert.LibRowVector

end
-- ==== Proof.Stretch.lean ====
/-
  The five stretches of host operations of the tiled program, each read as stages of the model.

  Between the regions @main applies host operations to whole buffers. Read at the buffer a region (or the return)
  takes, each stretch is a stage of the model applied to the contents before the stretch: the first computes
  the two degree factors and hands the out-degree factor to the first region as a column; the second and the
  fourth sum along the edges and hand over the in-degree column and the bias row; the third hands the out-degree
  column again; the last takes the per-graph mean. The kernel's program spells a column and a bias row as a
  reshape where the model has a broadcast along a new unit axis: the same array.
-/
import proofs.«172354_j88639535055109_1_alg».proof.Proof.Gen.KernelIdeal.Frame
import proofs.«172354_j88639535055109_1_alg».proof.Proof.Model
import proofs.«172354_j88639535055109_1_alg».proof.Proof.LibRowVector
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen Cert.KernelIdeal.Facts₀

/-! ## A column and a bias row, by reshape -/

/-- A per-node vector reshaped to a column is the model's column. -/
theorem reshape_column (v : Cert.Spec.Arr S100000) :
    shapeCast S100000x1 v Facts₀.shapeCasts_S100000_S100000x1 = Cert.Spec.column v :=
  Cert.LibVecColumn.shapeCast_eq_broadcastInDim (a := 100000) v _ _

/-- A bias vector reshaped to a row is the model's bias row. -/
theorem reshape_biasRow64 (b : Cert.Spec.Arr S64) :
    shapeCast S1x64 b Facts₀.shapeCasts_S64_S1x64 = Cert.Spec.biasRow64 b :=
  Cert.LibRowVector.shapeCast_eq_broadcastInDim (b := 64) b _ _
theorem reshape_biasRow10 (b : Cert.Spec.Arr S10) :
    shapeCast S1x10 b Facts₀.shapeCasts_S10_S1x10 = Cert.Spec.biasRow10 b :=
  Cert.LibRowVector.shapeCast_eq_broadcastInDim (b := 10) b _ _

variable (m : (ℓ : Loc nD τ sig) → Buf (Elt Ideal) ℓ) (ρ : Dev nD → PrngReg) (c : Dev nD)

/-! ## The first stretch: the degree factors -/

theorem W1_v9 : W1 m ρ c (Proc.devRef .tc main_v9) = Cert.Spec.invSqrtDegree (m ((c : Thread nD τ).loc main_arg1)) := by
  show StableHlo.after hostOps0 (W0 m ρ c) (Proc.devRef .tc main_v9) = _
  after_results
  rfl

theorem W1_v12 : W1 m ρ c (Proc.devRef .tc main_v12) = Cert.Spec.invSqrtDegree (m ((c : Thread nD τ).loc main_arg2)) := by
  show StableHlo.after hostOps0 (W0 m ρ c) (Proc.devRef .tc main_v12) = _
  after_results
  rfl

theorem W1_v13 :
    W1 m ρ c (Proc.devRef .tc main_v13) = Cert.Spec.column (Cert.Spec.invSqrtDegree (m ((c : Thread nD τ).loc main_arg1))) := by
  show StableHlo.after hostOps0 (W0 m ρ c) (Proc.devRef .tc main_v13) = _
  after_results
  exact reshape_column (Cert.Spec.invSqrtDegree (m ((c : Thread nD τ).loc main_arg1)))

/-! ## The second stretch: the first sum along the edges, the in-degree column, the first bias row -/

theorem W3_v24 : W3 m ρ c (Proc.devRef .tc main_v24)
    = Cert.Spec.alongEdges (W2 m ρ c (Proc.devRef .tc main_v14)) (W2 m ρ c (Proc.devRef .tc main_arg1))
        (W2 m ρ c (Proc.devRef .tc main_arg2)) := by
  show StableHlo.after hostOps1 (W2 m ρ c) (Proc.devRef .tc main_v24) = _
  after_results
  rfl

theorem W3_v25 : W3 m ρ c (Proc.devRef .tc main_v25) = Cert.Spec.column (W2 m ρ c (Proc.devRef .tc main_v12)) := by
  show StableHlo.after hostOps1 (W2 m ρ c) (Proc.devRef .tc main_v25) = _
  after_results
  exact reshape_column (W2 m ρ c (Proc.devRef .tc main_v12))

theorem W3_v26 : W3 m ρ c (Proc.devRef .tc main_v26) = Cert.Spec.biasRow64 (W2 m ρ c (Proc.devRef .tc main_arg5)) := by
  show StableHlo.after hostOps1 (W2 m ρ c) (Proc.devRef .tc main_v26) = _
  after_results
  exact reshape_biasRow64 (W2 m ρ c (Proc.devRef .tc main_arg5))

/-! ## The third stretch: the out-degree column again -/

theorem W5_v28 : W5 m ρ c (Proc.devRef .tc main_v28) = Cert.Spec.column (W4 m ρ c (Proc.devRef .tc main_v9)) := by
  show StableHlo.after hostOps2 (W4 m ρ c) (Proc.devRef .tc main_v28) = _
  after_results
  exact reshape_column (W4 m ρ c (Proc.devRef .tc main_v9))

/-! ## The fourth stretch: the second sum along the edges, the in-degree column, the second bias row -/

theorem W7_v39 : W7 m ρ c (Proc.devRef .tc main_v39)
    = Cert.Spec.alongEdges (W6 m ρ c (Proc.devRef .tc main_v29)) (W6 m ρ c (Proc.devRef .tc main_arg1))
        (W6 m ρ c (Proc.devRef .tc main_arg2)) := by
  show StableHlo.after hostOps3 (W6 m ρ c) (Proc.devRef .tc main_v39) = _
  after_results
  rfl

theorem W7_v40 : W7 m ρ c (Proc.devRef .tc main_v40) = Cert.Spec.column (W6 m ρ c (Proc.devRef .tc main_v12)) := by
  show StableHlo.after hostOps3 (W6 m ρ c) (Proc.devRef .tc main_v40) = _
  after_results
  exact reshape_column (W6 m ρ c (Proc.devRef .tc main_v12))

theorem W7_v41 : W7 m ρ c (Proc.devRef .tc main_v41) = Cert.Spec.biasRow10 (W6 m ρ c (Proc.devRef .tc main_arg7)) := by
  show StableHlo.after hostOps3 (W6 m ρ c) (Proc.devRef .tc main_v41) = _
  after_results
  exact reshape_biasRow10 (W6 m ρ c (Proc.devRef .tc main_arg7))

/-! ## The last stretch: the per-graph mean -/

theorem W9_v54 : W9 m ρ c (Proc.devRef .tc main_v54)
    = Cert.Spec.graphMean (W8 m ρ c (Proc.devRef .tc main_v42)) (W8 m ρ c (Proc.devRef .tc main_arg3)) := by
  show StableHlo.after hostOps4 (W8 m ρ c) (Proc.devRef .tc main_v54) = _
  after_results
  rfl

end Cert.KernelIdeal.Stretch

end
-- ==== Proof.Keep.lean ====
/-
  Buffers that the tiled program computes once and reads again later keep their contents in between.

  The edge endpoints, the graph ids, the bias vectors and the weights are arguments; the two degree factors are
  computed by the first stretch of host operations. The second layer reads the endpoints and the degree factors
  again after two regions and two more stretches of host operations have run. None of those writes these buffers:
  a stretch of host operations changes only the buffers its operations write, and a region changes only its
  output array (here none of these buffers is a window of a region that is crossed). So the contents at a later
  boundary of @main are the contents at the earlier one, step by step.
-/
import proofs.«172354_j88639535055109_1_alg».proof.Proof.Gen.KernelIdeal.Frame
import Idealize.ShloMosaic.Lib.StableHlo.Run

set_option maxRecDepth 16384

noncomputable section

namespace Cert.KernelIdeal.Keep

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- No operation of the stretch writes the buffer: each operation writes one buffer, another one. -/
macro "not_written" : tactic => `(tactic| (
  refine List.forall_iff_forall_mem.mp ?_
  simp only [hostOps0, hostOps1, hostOps2, hostOps3, hostOps4, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Across the first stretch: the arguments are as launched -/

theorem W1_arg0 (c : Dev nD) : W1 m ρ c (Proc.devRef .tc main_arg0) = m ((c : Thread nD τ).loc main_arg0) :=
  StableHlo.after_of_forall_not_mem (b := Proc.devRef .tc main_arg0) _ _ (by not_written)
theorem W1_arg1 (c : Dev nD) : W1 m ρ c (Proc.devRef .tc main_arg1) = m ((c : Thread nD τ).loc main_arg1) :=
  StableHlo.after_of_forall_not_mem (b := Proc.devRef .tc main_arg1) _ _ (by not_written)
theorem W1_arg2 (c : Dev nD) : W1 m ρ c (Proc.devRef .tc main_arg2) = m ((c : Thread nD τ).loc main_arg2) :=
  StableHlo.after_of_forall_not_mem (b := Proc.devRef .tc main_arg2) _ _ (by not_written)
theorem W1_arg3 (c : Dev nD) : W1 m ρ c (Proc.devRef .tc main_arg3) = m ((c : Thread nD τ).loc main_arg3) :=
  StableHlo.after_of_forall_not_mem (b := Proc.devRef .tc main_arg3) _ _ (by not_written)
theorem W1_arg4 (c : Dev nD) : W1 m ρ c (Proc.devRef .tc main_arg4) = m ((c : Thread nD τ).loc main_arg4) :=
  StableHlo.after_of_forall_not_mem (b := Proc.devRef .tc main_arg4) _ _ (by not_written)
theorem W1_arg5 (c : Dev nD) : W1 m ρ c (Proc.devRef .tc main_arg5) = m ((c : Thread nD τ).loc main_arg5) :=
  StableHlo.after_of_forall_not_mem (b := Proc.devRef .tc main_arg5) _ _ (by not_written)
theorem W1_arg6 (c : Dev nD) : W1 m ρ c (Proc.devRef .tc main_arg6) = m ((c : Thread nD τ).loc main_arg6) :=
  StableHlo.after_of_forall_not_mem (b := Proc.devRef .tc main_arg6) _ _ (by not_written)
theorem W1_arg7 (c : Dev nD) : W1 m ρ c (Proc.devRef .tc main_arg7) = m ((c : Thread nD τ).loc main_arg7) :=
  StableHlo.after_of_forall_not_mem (b := Proc.devRef .tc main_arg7) _ _ (by not_written)

/-! ## One step back across each later segment, for a buffer the segment leaves alone -/

section Steps
variable (c : Dev nD) (b : Ref sig .tc)

theorem back2 (h : ∀ w, Pipeline.arrRef spec0 w ≠ b) : W2 m ρ c (Proc.devRef .tc b) = W1 m ρ c (Proc.devRef .tc b) :=
  W2_of_ne m ρ c b h
theorem back3 (h : ∀ op ∈ (hostOps1 : List (HloOp τ sig (Elt F))), Proc.devRef .tc b ∉ op.writes) :
    W3 m ρ c (Proc.devRef .tc b) = W2 m ρ c (Proc.devRef .tc b) :=
  StableHlo.after_of_forall_not_mem _ _ h
theorem back4 (h : ∀ w, Pipeline.arrRef spec1 w ≠ b) : W4 m ρ c (Proc.devRef .tc b) = W3 m ρ c (Proc.devRef .tc b) :=
  W4_of_ne m ρ c b h
theorem back5 (h : ∀ op ∈ (hostOps2 : List (HloOp τ sig (Elt F))), Proc.devRef .tc b ∉ op.writes) :
    W5 m ρ c (Proc.devRef .tc b) = W4 m ρ c (Proc.devRef .tc b) :=
  StableHlo.after_of_forall_not_mem _ _ h
theorem back6 (h : ∀ w, Pipeline.arrRef spec2 w ≠ b) : W6 m ρ c (Proc.devRef .tc b) = W5 m ρ c (Proc.devRef .tc b) :=
  W6_of_ne m ρ c b h
theorem back7 (h : ∀ op ∈ (hostOps3 : List (HloOp τ sig (Elt F))), Proc.devRef .tc b ∉ op.writes) :
    W7 m ρ c (Proc.devRef .tc b) = W6 m ρ c (Proc.devRef .tc b) :=
  StableHlo.after_of_forall_not_mem _ _ h
theorem back8 (h : ∀ w, Pipeline.arrRef spec3 w ≠ b) : W8 m ρ c (Proc.devRef .tc b) = W7 m ρ c (Proc.devRef .tc b) :=
  W8_of_ne m ρ c b h

end Steps

/-! ## The buffers read again later, at the boundaries where they are read -/

variable (c : Dev nD)

/-- The edge sources at the first region's exit (read by the first sum along the edges). -/
theorem W2_arg1 : W2 m ρ c (Proc.devRef .tc main_arg1) = m ((c : Thread nD τ).loc main_arg1) :=
  (back2 m ρ c main_arg1 (by decide)).trans (W1_arg1 m ρ c)
theorem W2_arg2 : W2 m ρ c (Proc.devRef .tc main_arg2) = m ((c : Thread nD τ).loc main_arg2) :=
  (back2 m ρ c main_arg2 (by decide)).trans (W1_arg2 m ρ c)
theorem W2_arg5 : W2 m ρ c (Proc.devRef .tc main_arg5) = m ((c : Thread nD τ).loc main_arg5) :=
  (back2 m ρ c main_arg5 (by decide)).trans (W1_arg5 m ρ c)
/-- The in-degree factor at the first region's exit. -/
theorem W2_v12 : W2 m ρ c (Proc.devRef .tc main_v12) = W1 m ρ c (Proc.devRef .tc main_v12) :=
  back2 m ρ c main_v12 (by decide)
/-- The first weight matrix at the second region's entry. -/
theorem W3_arg4 : W3 m ρ c (Proc.devRef .tc main_arg4) = m ((c : Thread nD τ).loc main_arg4) :=
  (back3 m ρ c main_arg4 (by not_written)).trans <| (back2 m ρ c main_arg4 (by decide)).trans (W1_arg4 m ρ c)
/-- The out-degree factor at the second region's exit. -/
theorem W4_v9 : W4 m ρ c (Proc.devRef .tc main_v9) = W1 m ρ c (Proc.devRef .tc main_v9) :=
  (back4 m ρ c main_v9 (by decide)).trans <| (back3 m ρ c main_v9 (by not_written)).trans (back2 m ρ c main_v9 (by decide))
/-- The hidden layer at the third region's entry. -/
theorem W5_v27 : W5 m ρ c (Proc.devRef .tc main_v27) = W4 m ρ c (Proc.devRef .tc main_v27) :=
  back5 m ρ c main_v27 (by not_written)

/-- From the third region's exit back to the first region's exit, for a buffer nothing in between touches. -/
theorem W6_to_W2 (b : Ref sig .tc) (h2 : ∀ w, Pipeline.arrRef spec2 w ≠ b)
    (hh2 : ∀ op ∈ (hostOps2 : List (HloOp τ sig (Elt F))), Proc.devRef .tc b ∉ op.writes)
    (h1 : ∀ w, Pipeline.arrRef spec1 w ≠ b)
    (hh1 : ∀ op ∈ (hostOps1 : List (HloOp τ sig (Elt F))), Proc.devRef .tc b ∉ op.writes) :
    W6 m ρ c (Proc.devRef .tc b) = W2 m ρ c (Proc.devRef .tc b) :=
  (back6 m ρ c b h2).trans <| (back5 m ρ c b hh2).trans <| (back4 m ρ c b h1).trans (back3 m ρ c b hh1)

theorem W6_arg1 : W6 m ρ c (Proc.devRef .tc main_arg1) = m ((c : Thread nD τ).loc main_arg1) :=
  (W6_to_W2 m ρ c main_arg1 (by decide) (by not_written) (by decide) (by not_written)).trans (W2_arg1 m ρ c)
theorem W6_arg2 : W6 m ρ c (Proc.devRef .tc main_arg2) = m ((c : Thread nD τ).loc main_arg2) :=
  (W6_to_W2 m ρ c main_arg2 (by decide) (by not_written) (by decide) (by not_written)).trans (W2_arg2 m ρ c)
theorem W6_arg7 : W6 m ρ c (Proc.devRef .tc main_arg7) = m ((c : Thread nD τ).loc main_arg7) :=
  (W6_to_W2 m ρ c main_arg7 (by decide) (by not_written) (by decide) (by not_written)).trans <|
    (back2 m ρ c main_arg7 (by decide)).trans (W1_arg7 m ρ c)
theorem W6_v12 : W6 m ρ c (Proc.devRef .tc main_v12) = W1 m ρ c (Proc.devRef .tc main_v12) :=
  (W6_to_W2 m ρ c main_v12 (by decide) (by not_written) (by decide) (by not_written)).trans (W2_v12 m ρ c)
/-- The second weight matrix at the fourth region's entry. -/
theorem W7_arg6 : W7 m ρ c (Proc.devRef .tc main_arg6) = m ((c : Thread nD τ).loc main_arg6) :=
  (back7 m ρ c main_arg6 (by not_written)).trans <|
    (W6_to_W2 m ρ c main_arg6 (by decide) (by not_written) (by decide) (by not_written)).trans <|
      (back2 m ρ c main_arg6 (by decide)).trans (W1_arg6 m ρ c)
/-- The graph ids at the fourth region's exit. -/
theorem W8_arg3 : W8 m ρ c (Proc.devRef .tc main_arg3) = m ((c : Thread nD τ).loc main_arg3) :=
  (back8 m ρ c main_arg3 (by decide)).trans <| (back7 m ρ c main_arg3 (by not_written)).trans <|
    (W6_to_W2 m ρ c main_arg3 (by decide) (by not_written) (by decide) (by not_written)).trans <|
      (back2 m ρ c main_arg3 (by decide)).trans (W1_arg3 m ρ c)

end Cert.KernelIdeal.Keep

end
-- ==== Proof.Chain.lean ====
/-
  The tiled program's result is the model function of its arguments.

  The contents of the result buffer at the end of @main are read back through the nine segments. Each region's
  output array is a dense stage of the model applied to the arrays the region reads (the four facts collected in
  `RegionArrays`, proved region by region from the blocks the grid points write); each stretch of host operations
  is the stages between; and the buffers read again later are unchanged in between. Substituting from the last
  segment back to the launch gives the model applied to the argument arrays as launched.
-/
import proofs.«172354_j88639535055109_1_alg».proof.Proof.Stretch
import proofs.«172354_j88639535055109_1_alg».proof.Proof.Keep

set_option maxRecDepth 16384

noncomputable section

namespace Cert.KernelIdeal.Chain

open Idealize.ShloMosaic Idealize.ShloMosaic.TcCoe Idealize.SL.Sem
open Cert.KernelIdeal Cert.KernelIdeal.Gen

/-- What each region leaves in its output array, for any contents `V` at its entry: the rows of window 0 scaled by
    the column in window 1 (regions 0 and 2), and the dense layer of windows 0 to 3, clamped at 0 in region 1 and
    not in region 3. -/
structure RegionArrays : Prop where
  scale0 : ∀ (V : (c : Dev nD) → (b : Ref sig .tc) → Buf (Elt Ideal) ((c : Thread nD τ).loc b)) (c : Dev nD),
    (dat0 (F := Ideal) V c).arrAt 2 cfg0.N = Cert.Spec.scaleRows (V c main_arg0) (V c main_v13)
  dense1 : ∀ (V : (c : Dev nD) → (b : Ref sig .tc) → Buf (Elt Ideal) ((c : Thread nD τ).loc b)) (c : Dev nD),
    (dat1 (F := Ideal) V c).arrAt 4 cfg1.N
      = Cert.Spec.relu64 (Cert.Spec.dense64 (V c main_v24) (V c main_v25) (V c main_arg4) (V c main_v26))
  scale2 : ∀ (V : (c : Dev nD) → (b : Ref sig .tc) → Buf (Elt Ideal) ((c : Thread nD τ).loc b)) (c : Dev nD),
    (dat2 (F := Ideal) V c).arrAt 2 cfg2.N = Cert.Spec.scaleRows (V c main_v27) (V c main_v28)
  dense3 : ∀ (V : (c : Dev nD) → (b : Ref sig .tc) → Buf (Elt Ideal) ((c : Thread nD τ).loc b)) (c : Dev nD),
    (dat3 (F := Ideal) V c).arrAt 4 cfg3.N
      = Cert.Spec.dense10 (V c main_v39) (V c main_v40) (V c main_arg6) (V c main_v41)

variable (hR : RegionArrays)
variable (m : (ℓ : Loc nD τ sig) → Buf (Elt Ideal) ℓ) (ρ : Dev nD → PrngReg) (c : Dev nD)

include hR

/-! ## The first layer -/

/-- Region 0 leaves the input's rows scaled by the out-degree factor. -/
theorem W2_v14 : W2 m ρ c (Proc.devRef .tc main_v14)
    = Cert.Spec.scaleRows (m ((c : Thread nD τ).loc main_arg0)) (Cert.Spec.column (Cert.Spec.invSqrtDegree (m ((c : Thread nD τ).loc main_arg1)))) :=
  (W2_arr m ρ c 2).trans <| (hR.scale0 (V1 m ρ) c).trans <|
    congrArg₂ Cert.Spec.scaleRows (Keep.W1_arg0 m ρ c) (Stretch.W1_v13 m ρ c)

/-- The sum along the edges of the scaled rows. -/
theorem W3_v24 : W3 m ρ c (Proc.devRef .tc main_v24)
    = Cert.Spec.alongEdges (Cert.Spec.scaleRows (m ((c : Thread nD τ).loc main_arg0)) (Cert.Spec.column (Cert.Spec.invSqrtDegree (m ((c : Thread nD τ).loc main_arg1))))) (m ((c : Thread nD τ).loc main_arg1)) (m ((c : Thread nD τ).loc main_arg2)) := by
  rw [Stretch.W3_v24, W2_v14 hR, Keep.W2_arg1, Keep.W2_arg2]

omit hR in
/-- The in-degree factor as a column. -/
theorem W3_v25 : W3 m ρ c (Proc.devRef .tc main_v25) = Cert.Spec.column (Cert.Spec.invSqrtDegree (m ((c : Thread nD τ).loc main_arg2))) := by
  rw [Stretch.W3_v25, Keep.W2_v12, Stretch.W1_v12]

omit hR in
/-- The first bias as a row. -/
theorem W3_v26 : W3 m ρ c (Proc.devRef .tc main_v26) = Cert.Spec.biasRow64 (m ((c : Thread nD τ).loc main_arg5)) := by
  rw [Stretch.W3_v26, Keep.W2_arg5]

/-- Region 1 leaves the hidden layer. -/
theorem W4_v27 : W4 m ρ c (Proc.devRef .tc main_v27) = Cert.Spec.hidden (m ((c : Thread nD τ).loc main_arg0)) (m ((c : Thread nD τ).loc main_arg1)) (m ((c : Thread nD τ).loc main_arg2)) (m ((c : Thread nD τ).loc main_arg4)) (m ((c : Thread nD τ).loc main_arg5)) :=
  (W4_arr m ρ c 4).trans <| (hR.dense1 (V3 m ρ) c).trans <| by
    show Cert.Spec.relu64 (Cert.Spec.dense64 (W3 m ρ c (Proc.devRef .tc main_v24)) (W3 m ρ c (Proc.devRef .tc main_v25))
      (W3 m ρ c (Proc.devRef .tc main_arg4)) (W3 m ρ c (Proc.devRef .tc main_v26))) = _
    rw [W3_v24 hR, W3_v25, Keep.W3_arg4, W3_v26]
    rfl

/-! ## The second layer -/

/-- Region 2 leaves the hidden layer's rows scaled by the out-degree factor. -/
theorem W6_v29 : W6 m ρ c (Proc.devRef .tc main_v29)
    = Cert.Spec.scaleRows (Cert.Spec.hidden (m ((c : Thread nD τ).loc main_arg0)) (m ((c : Thread nD τ).loc main_arg1)) (m ((c : Thread nD τ).loc main_arg2)) (m ((c : Thread nD τ).loc main_arg4)) (m ((c : Thread nD τ).loc main_arg5))) (Cert.Spec.column (Cert.Spec.invSqrtDegree (m ((c : Thread nD τ).loc main_arg1)))) :=
  (W6_arr m ρ c 2).trans <| (hR.scale2 (V5 m ρ) c).trans <| by
    show Cert.Spec.scaleRows (W5 m ρ c (Proc.devRef .tc main_v27)) (W5 m ρ c (Proc.devRef .tc main_v28)) = _
    rw [Keep.W5_v27, W4_v27 hR, Stretch.W5_v28, Keep.W4_v9, Stretch.W1_v9]

/-- Region 3 leaves the output layer's rows. -/
theorem W8_v42 : W8 m ρ c (Proc.devRef .tc main_v42) = Cert.Spec.logits (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W8_arr m ρ c 4).trans <| (hR.dense3 (V7 m ρ) c).trans <| by
    show Cert.Spec.dense10 (W7 m ρ c (Proc.devRef .tc main_v39)) (W7 m ρ c (Proc.devRef .tc main_v40))
      (W7 m ρ c (Proc.devRef .tc main_arg6)) (W7 m ρ c (Proc.devRef .tc main_v41)) = _
    rw [Stretch.W7_v39, W6_v29 hR, Keep.W6_arg1, Keep.W6_arg2, Stretch.W7_v40, Keep.W6_v12, Stretch.W1_v12,
      Keep.W7_arg6, Stretch.W7_v41, Keep.W6_arg7]
    rfl

/-! ## The result -/

/-- The result buffer at the end of @main holds the model of the arguments as launched. -/
theorem result : W9 m ρ c (Proc.devRef .tc main_v54) = Cert.Spec.model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Stretch.W9_v54, W8_v42 hR, Keep.W8_arg3]
  rfl

end Cert.KernelIdeal.Chain

end
-- ==== Proof.RefModel.lean ====
/-
  The reference program's result is the model function of its arguments.

  The reference's run ends with its result buffer at the composition of its host operations applied to the launch
  contents of the arguments. That composition is, operation for operation, the chain of stages of the model
  (degree factors, scaling, sum along the edges, product with the weights and bias, clamp, per-graph mean), so the
  two terms are equal by unfolding the stage definitions.
-/
import proofs.«172354_j88639535055109_1_alg».proof.Proof.Model
import proofs.«172354_j88639535055109_1_alg».proof.Proof.Gen.ReferenceIdeal.Run

set_option maxRecDepth 16384

noncomputable section

namespace Cert.ReferenceIdeal.RefValue

open Idealize.ShloMosaic Idealize.ShloMosaic.TcCoe Idealize.SL.Sem Cert.ReferenceIdeal

theorem result_eq_model (m : (ℓ : Loc nD τ sig) → Buf (Elt Ideal) ℓ) (c : Dev nD) :
    Cert.ReferenceIdeal.Value.res_main_v65 (F := Ideal) m c
      = Cert.Spec.model (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v65 Cert.Spec.model Cert.Spec.graphMean Cert.Spec.logits Cert.Spec.hidden
    Cert.Spec.dense10 Cert.Spec.dense64 Cert.Spec.relu64 Cert.Spec.scaleRows Cert.Spec.alongEdges Cert.Spec.wrapIndex
    Cert.Spec.column Cert.Spec.invSqrtDegree Cert.Spec.biasRow64 Cert.Spec.biasRow10
  rfl

end Cert.ReferenceIdeal.RefValue

end
-- ==== Proof.ScaleBlock.lean ====
/-
  One block of the row-scaling kernel, and the row scaling of a whole array, each read at one entry.

  The kernel works on a block of 2000 rows at a time. It holds a block x of shape [2000, 64] and a column block
  d of shape [2000, 1], repeats the column along the 64 entries of each row and multiplies entry by entry. So the
  block it stores has at (p, q) the product x(p, q) · d(p, 0): an entry depends on its own entry of x and on the one
  entry of the column in its own row, and on nothing else of the block.

  The reference does the same on the whole array: the column [100000, 1] is repeated along each row and multiplied
  with the array [100000, 64], so the result has at (r, q) the product x(r, q) · d(r, 0).

  Both readings have the same form. The tiled computation is therefore the whole-array one as soon as row p of
  block t is row 2000·t + p of the array; that is the statement about the blocks, in the modules that import this one.
  The program scales rows twice, once per layer, with two printed kernels that differ only by a cast of a block to
  its own shape; both are read here, so that the two regions share every statement below.
-/
import proofs.«172354_j88639535055109_1_alg».proof.Proof.Gen.KernelIdeal.Skeleton
import proofs.«172354_j88639535055109_1_alg».proof.Proof.Spec
import proofs.«172354_j88639535055109_1_alg».proof.Proof.LibColumn

noncomputable section

namespace Cert.ScaleBlock

open Idealize.ShloMosaic Idealize.ShloMosaic.ValueIdx Cert.KernelIdeal Cert.KernelIdeal.Gen

/-! ## A column repeated along the rows, in the reference's spelling -/

/-- A column [a, 1] broadcast to [a, b], each axis of the column sent to the axis of the same number, reads at
    (p, c) the column at (p, 0): the second axis of the column has one coordinate, so its coordinate is 0; on the
    first axis the coordinate p is kept (and if a = 1 then p = 0 anyway). -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## The kernel's block at an entry -/

/-- The block the first scaling kernel stores: at (p, q) it is x(p, q) · d(p, 0). The column block is cast to its
    own shape (the identity), repeated along each row, and multiplied with x entry by entry. -/
theorem k0_pay1_apply (x : Vec Ideal S2000x64 .f32) (d : Vec Ideal S2000x1 .f32) (p : Fin 2000) (q : Fin 64) :
    k0_pay1 (F := Ideal) x d (ix2 p q) = x (ix2 p q) * d (ix2 p (0 : Fin 1)) := by
  unfold k0_pay1
  show mulf (F := Ideal) x (broadcastTo S2000x64 (shapeCast S2000x1 d shapeCasts_S2000x1_S2000x1) broadcasts_S2000x1_S2000x64)
    (ix2 p q) = _
  refine (mulf_apply _ _ _).trans ?_
  refine congrArg (fun z => x (ix2 p q) * z) ?_
  refine (Cert.LibColumn.broadcastTo_a1_ab_apply _ broadcasts_S2000x1_S2000x64 p q).trans ?_
  rw [shapeCast_self]

/-- The block the second scaling kernel stores is the same function of its two blocks: here the block x is also
    cast to its own shape first, which changes nothing. -/
theorem k2_pay1_apply (x : Vec Ideal S2000x64 .f32) (d : Vec Ideal S2000x1 .f32) (p : Fin 2000) (q : Fin 64) :
    k2_pay1 (F := Ideal) x d (ix2 p q) = x (ix2 p q) * d (ix2 p (0 : Fin 1)) := by
  unfold k2_pay1
  show mulf (F := Ideal) (shapeCast S2000x64 x shapeCasts_S2000x64_S2000x64)
    (broadcastTo S2000x64 (shapeCast S2000x1 d shapeCasts_S2000x1_S2000x1) broadcasts_S2000x1_S2000x64) (ix2 p q) = _
  refine (mulf_apply _ _ _).trans ?_
  rw [shapeCast_self, shapeCast_self]
  refine congrArg (fun z => x (ix2 p q) * z) ?_
  exact Cert.LibColumn.broadcastTo_a1_ab_apply _ broadcasts_S2000x1_S2000x64 p q

/-- The same at any index j of the block, split into its coordinates (j 0, j 1): x(j) · d(j 0, 0). -/
theorem k0_pay1_at (x : Vec Ideal S2000x64 .f32) (d : Vec Ideal S2000x1 .f32) (j : S2000x64.Idx) :
    k0_pay1 (F := Ideal) x d j = x j * d (ix2 (j 0) (0 : Fin 1)) := by
  obtain ⟨p, q, rfl⟩ : ∃ (p : Fin 2000) (q : Fin 64), j = ix2 p q := ⟨j 0, j 1, eq_ix2 j⟩
  exact k0_pay1_apply x d p q

/-- And for the second kernel. -/
theorem k2_pay1_at (x : Vec Ideal S2000x64 .f32) (d : Vec Ideal S2000x1 .f32) (j : S2000x64.Idx) :
    k2_pay1 (F := Ideal) x d j = x j * d (ix2 (j 0) (0 : Fin 1)) := by
  obtain ⟨p, q, rfl⟩ : ∃ (p : Fin 2000) (q : Fin 64), j = ix2 p q := ⟨j 0, j 1, eq_ix2 j⟩
  exact k2_pay1_apply x d p q

/-! ## The specification at an entry -/

/-- The row scaling of a whole array: at (r, q) it is x(r, q) · d(r, 0). -/
theorem scaleRows_apply (x : Cert.Spec.Arr Cert.ReferenceIdeal.S100000x64) (d : Cert.Spec.Arr Cert.ReferenceIdeal.S100000x1)
    (r : Fin 100000) (q : Fin 64) :
    Cert.Spec.scaleRows x d (ix2 r q) = x (ix2 r q) * d (ix2 r (0 : Fin 1)) := by
  unfold Cert.Spec.scaleRows
  refine (mulf_apply _ _ _).trans ?_
  refine congrArg (fun z => x (ix2 r q) * z) ?_
  exact broadcastInDim_a1_ab_apply d _ r q

/-- The same at any index i of the array: x(i) · d(i 0, 0). -/
theorem scaleRows_at (x : Cert.Spec.Arr Cert.ReferenceIdeal.S100000x64) (d : Cert.Spec.Arr Cert.ReferenceIdeal.S100000x1)
    (i : Cert.ReferenceIdeal.S100000x64.Idx) :
    Cert.Spec.scaleRows x d i = x i * d (ix2 (i 0) (0 : Fin 1)) := by
  obtain ⟨r, q, rfl⟩ : ∃ (r : Fin 100000) (q : Fin 64), i = ix2 r q := ⟨i 0, i 1, eq_ix2 i⟩
  exact scaleRows_apply x d r q

/-! ## A small fact about offsets -/

/-- The kernel loads and stores each of its buffers whole: the offsets (0, 0) are the zero offsets. -/
theorem zero_offsets : (![0, 0] : Fin 2 → Nat) = fun _ => 0 := funext fun a => by fin_cases a <;> rfl

end Cert.ScaleBlock

end
-- ==== Proof.ScaleRegion0.lean ====
/-
  Region 0 of the program: the rows of an array [100000, 64] scaled by a column [100000, 1], computed block of
  rows by block of rows, is the row scaling of the whole arrays.

  The grid has 50 points. At point t the kernel is handed block t of the array (rows 2000·t … 2000·t + 1999, all
  64 columns), block t of the column (the same rows, its one column) and writes block t of the result (the same
  rows, all 64 columns). Entry (p, q) of the block it stores is x(p, q) · d(p, 0) of the two blocks it was handed,
  that is, entry (2000·t + p, q) of the array times entry (2000·t + p, 0) of the column: an entry of the result
  depends only on its own entry of the array and on the column's entry in its own row, and both lie in the blocks
  of the same point. That is the entry (2000·t + p, q) of the row scaling of the whole arrays. So what every point
  writes back is its block of ONE array, the row scaling of the two arrays the region is entered with
  (in the program: the node features, and the column of per-node factors, the out-degree clamped below by 1 to the
  power −1/2; the statement holds whatever the two arrays are).

  Every row r lies in exactly the block of point r / 2000 (integer division; 100000 = 50 · 2000), so the blocks
  written back cover the result array, and the array ends holding the row scaling everywhere.
-/
import proofs.«172354_j88639535055109_1_alg».proof.Proof.Gen.KernelIdeal.Frame
import proofs.«172354_j88639535055109_1_alg».proof.Proof.Spec
import proofs.«172354_j88639535055109_1_alg».proof.Proof.ScaleBlock
import Idealize.ShloMosaic.Lib.Pipeline.Value

noncomputable section

namespace Cert.KernelIdeal.RegionValue

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-! ## Where the blocks sit -/

/-- The three index maps, decided once over the 50 points: at point t each of the three windows is at block
    (t, 0). On the row axis the block index is the point's number; on the column axis there is one block. -/
theorem scale0_block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## What a point writes back -/

/-- The block point t writes back is block t of the row scaling of the whole arrays. An element of a block sits
    in its array, on each axis, at block index · block size + its coordinate in the block. The array's block and
    the result's block have the same index and the same sizes, so entry j of one lies under entry j of the other;
    the column's block has the same index on the row axis and its one column is column 0, so the column's entry
    (j 0, 0) lies in the row of the array that entry j lies in. -/
theorem scale0_flushed (c : Dev nD) (t : Fin cfg0.N) :
    (dat0 (F := Ideal) V c).flushed 2 t
      = ((cfg0.win 2).blk t).view.read (Elt Ideal) (Cert.Spec.scaleRows (V c main_arg0) (V c main_v13)) := by
  show (cfg0.win 2).cut (grid0.coords t) ((dat0 (F := Ideal) V c).after 2 t) = _
  rw [after0_2]
  unfold out0_2
  -- the one store fills the whole staging buffer, and the two loads read whole buffers
  rw [View.canon_unit_zero Cert.ScaleBlock.zero_offsets]
  simp only [View.ld_unit_zero (S := S2000x64) Cert.ScaleBlock.zero_offsets,
    View.ld_unit_zero (S := S2000x1) Cert.ScaleBlock.zero_offsets]
  obtain ⟨e00, e01, e10, e11, e20, e21⟩ := scale0_block_index t
  funext j
  show k0_pay1 (F := Ideal) (iblk0 V c 0 t) (iblk0 V c 1 t) j
    = Cert.Spec.scaleRows (V c main_arg0) (V c main_v13) (((cfg0.win 2).blk t).view.emb j)
  -- both sides at their entry: a product of an entry of the array and an entry of the column
  refine (Cert.ScaleBlock.k0_pay1_at (iblk0 V c 0 t) (iblk0 V c 1 t) j).trans ?_
  refine Eq.trans ?_
    (Cert.ScaleBlock.scaleRows_at (V c main_arg0) (V c main_v13) (((cfg0.win 2).blk t).view.emb j)).symm
  -- the array's block read at j is the array read where the result's block puts j
  have h0 : (iblk0 V c 0 t : Vec Ideal S2000x64 .f32) j
      = (V c main_arg0 : S100000x64.Idx → EReal) (((cfg0.win 2).blk t).view.emb j) := by
    show V c main_arg0 (((cfg0.win 0).blk t).view.emb j) = V c main_arg0 (((cfg0.win 2).blk t).view.emb j)
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 64 + 1 * (j 1).val = win0_2.index t (1 : Fin 2) * 64 + 1 * (j 1).val
      omega
  -- the column's block read at (j 0, 0) is the column read at the row the result's block puts j in
  have h1 : (iblk0 V c 1 t : Vec Ideal S2000x1 .f32) (ix2 (j 0) (0 : Fin 1))
      = (V c main_v13 : S100000x1.Idx → EReal) (ix2 ((((cfg0.win 2).blk t).view.emb j) 0) (0 : Fin 1)) := by
    show V c main_v13 (((cfg0.win 1).blk t).view.emb (ix2 (j 0) (0 : Fin 1)))
      = V c main_v13 (ix2 ((((cfg0.win 2).blk t).view.emb j) 0) (0 : Fin 1))
    refine congrArg (V c main_v13) (funext fun a => Fin.ext ?_)
    match a with
    | ⟨0, _⟩ =>
      show win0_1.index t (0 : Fin 2) * 2000 + 1 * (j 0).val = win0_2.index t (0 : Fin 2) * 2000 + 1 * (j 0).val
      omega
    | ⟨1, _⟩ =>
      show win0_1.index t (1 : Fin 2) * 1 + 1 * 0 = 0
      omega
  exact congrArg₂ (fun u v : EReal => u * v) h0 h1

/-! ## The blocks cover the array -/

/-- An index of the result array is in point t's block iff on each axis its coordinate is in the block's range:
    from block index · block size up to, not including, that plus the block size. -/
theorem scale0_mem_block (t : Fin cfg0.N) (i : S100000x64.Idx) :
    i ∈ ((cfg0.win 2).blk t).view.set
      ↔ ∀ a : Fin 2, win0_2.index t a * S2000x64.size a ≤ (i a).val
          ∧ (i a).val < win0_2.index t a * S2000x64.size a + S2000x64.size a := by
  show i ∈ ((View.whole main_v14).slice (win0_2.rect t)).set ↔ _
  rw [View.set_slice_whole, Rect.mem_set_unit]
  exact Iff.rfl

/-- Every index (r, q) of the result array is in the block of point r / 2000, which is written back:
    2000 · (r / 2000) ≤ r < 2000 · (r / 2000) + 2000, r / 2000 < 50 because r < 100000, and the block has all
    64 columns. -/
theorem scale0_covered (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 50 := N_0
  have ht : (i 0).val / 2000 < cfg0.N := by rw [hN]; omega
  obtain ⟨-, -, -, -, e0, e1⟩ := scale0_block_index ⟨(i 0).val / 2000, ht⟩
  refine ⟨⟨(i 0).val / 2000, ht⟩, flush0_2 _, ?_⟩
  rw [scale0_mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_2.index ⟨(i 0).val / 2000, ht⟩ (1 : Fin 2) * 64 ≤ (i 1).val
      ∧ (i 1).val < win0_2.index ⟨(i 0).val / 2000, ht⟩ (1 : Fin 2) * 64 + 64
    rw [e1]
    omega

/-! ## The array after the region -/

/-- After the 50 points the result array holds the row scaling of the two arrays the region found: every point
    wrote back its block of it, and the blocks cover the array. -/
theorem region0_array (c : Dev nD) :
    (dat0 (F := Ideal) V c).arrAt 2 cfg0.N = Cert.Spec.scaleRows (V c main_arg0) (V c main_v13) :=
  (dat0 (F := Ideal) V c).arrAt_eq_of_cover 2 (Cert.Spec.scaleRows (V c main_arg0) (V c main_v13))
    (fun t _ => scale0_flushed V c t) scale0_covered

end Cert.KernelIdeal.RegionValue

end
-- ==== Proof.ScaleRegion2.lean ====
/-
  Region 2 of the program: the rows of an array [100000, 64] scaled by a column [100000, 1], computed block of
  rows by block of rows, is the row scaling of the whole arrays.

  The grid has 50 points. At point t the kernel is handed block t of the array (rows 2000·t … 2000·t + 1999, all
  64 columns), block t of the column (the same rows, its one column) and writes block t of the result (the same
  rows, all 64 columns). Entry (p, q) of the block it stores is x(p, q) · d(p, 0) of the two blocks it was handed,
  that is, entry (2000·t + p, q) of the array times entry (2000·t + p, 0) of the column: an entry of the result
  depends only on its own entry of the array and on the column's entry in its own row, and both lie in the blocks
  of the same point. That is the entry (2000·t + p, q) of the row scaling of the whole arrays. So what every point
  writes back is its block of ONE array, the row scaling of the two arrays the region is entered with
  (in the program: the hidden layer, the first layer's result, and the same column of per-node factors as in the first
  layer, the out-degree clamped below by 1 to the power −1/2; the statement holds whatever the two arrays are).

  Every row r lies in exactly the block of point r / 2000 (integer division; 100000 = 50 · 2000), so the blocks
  written back cover the result array, and the array ends holding the row scaling everywhere.
-/
import proofs.«172354_j88639535055109_1_alg».proof.Proof.Gen.KernelIdeal.Frame
import proofs.«172354_j88639535055109_1_alg».proof.Proof.Spec
import proofs.«172354_j88639535055109_1_alg».proof.Proof.ScaleBlock
import Idealize.ShloMosaic.Lib.Pipeline.Value

noncomputable section

namespace Cert.KernelIdeal.RegionValue

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-! ## Where the blocks sit -/

/-- The three index maps, decided once over the 50 points: at point t each of the three windows is at block
    (t, 0). On the row axis the block index is the point's number; on the column axis there is one block. -/
theorem scale2_block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-! ## What a point writes back -/

/-- The block point t writes back is block t of the row scaling of the whole arrays. An element of a block sits
    in its array, on each axis, at block index · block size + its coordinate in the block. The array's block and
    the result's block have the same index and the same sizes, so entry j of one lies under entry j of the other;
    the column's block has the same index on the row axis and its one column is column 0, so the column's entry
    (j 0, 0) lies in the row of the array that entry j lies in. -/
theorem scale2_flushed (c : Dev nD) (t : Fin cfg2.N) :
    (dat2 (F := Ideal) V c).flushed 2 t
      = ((cfg2.win 2).blk t).view.read (Elt Ideal) (Cert.Spec.scaleRows (V c main_v27) (V c main_v28)) := by
  show (cfg2.win 2).cut (grid2.coords t) ((dat2 (F := Ideal) V c).after 2 t) = _
  rw [after2_2]
  unfold out2_2
  -- the one store fills the whole staging buffer, and the two loads read whole buffers
  rw [View.canon_unit_zero Cert.ScaleBlock.zero_offsets]
  simp only [View.ld_unit_zero (S := S2000x64) Cert.ScaleBlock.zero_offsets,
    View.ld_unit_zero (S := S2000x1) Cert.ScaleBlock.zero_offsets]
  obtain ⟨e00, e01, e10, e11, e20, e21⟩ := scale2_block_index t
  funext j
  show k2_pay1 (F := Ideal) (iblk2 V c 0 t) (iblk2 V c 1 t) j
    = Cert.Spec.scaleRows (V c main_v27) (V c main_v28) (((cfg2.win 2).blk t).view.emb j)
  -- both sides at their entry: a product of an entry of the array and an entry of the column
  refine (Cert.ScaleBlock.k2_pay1_at (iblk2 V c 0 t) (iblk2 V c 1 t) j).trans ?_
  refine Eq.trans ?_
    (Cert.ScaleBlock.scaleRows_at (V c main_v27) (V c main_v28) (((cfg2.win 2).blk t).view.emb j)).symm
  -- the array's block read at j is the array read where the result's block puts j
  have h0 : (iblk2 V c 0 t : Vec Ideal S2000x64 .f32) j
      = (V c main_v27 : S100000x64.Idx → EReal) (((cfg2.win 2).blk t).view.emb j) := by
    show V c main_v27 (((cfg2.win 0).blk t).view.emb j) = V c main_v27 (((cfg2.win 2).blk t).view.emb j)
    refine congrArg (V c main_v27) (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 64 + 1 * (j 1).val = win2_2.index t (1 : Fin 2) * 64 + 1 * (j 1).val
      omega
  -- the column's block read at (j 0, 0) is the column read at the row the result's block puts j in
  have h1 : (iblk2 V c 1 t : Vec Ideal S2000x1 .f32) (ix2 (j 0) (0 : Fin 1))
      = (V c main_v28 : S100000x1.Idx → EReal) (ix2 ((((cfg2.win 2).blk t).view.emb j) 0) (0 : Fin 1)) := by
    show V c main_v28 (((cfg2.win 1).blk t).view.emb (ix2 (j 0) (0 : Fin 1)))
      = V c main_v28 (ix2 ((((cfg2.win 2).blk t).view.emb j) 0) (0 : Fin 1))
    refine congrArg (V c main_v28) (funext fun a => Fin.ext ?_)
    match a with
    | ⟨0, _⟩ =>
      show win2_1.index t (0 : Fin 2) * 2000 + 1 * (j 0).val = win2_2.index t (0 : Fin 2) * 2000 + 1 * (j 0).val
      omega
    | ⟨1, _⟩ =>
      show win2_1.index t (1 : Fin 2) * 1 + 1 * 0 = 0
      omega
  exact congrArg₂ (fun u v : EReal => u * v) h0 h1

/-! ## The blocks cover the array -/

/-- An index of the result array is in point t's block iff on each axis its coordinate is in the block's range:
    from block index · block size up to, not including, that plus the block size. -/
theorem scale2_mem_block (t : Fin cfg2.N) (i : S100000x64.Idx) :
    i ∈ ((cfg2.win 2).blk t).view.set
      ↔ ∀ a : Fin 2, win2_2.index t a * S2000x64.size a ≤ (i a).val
          ∧ (i a).val < win2_2.index t a * S2000x64.size a + S2000x64.size a := by
  show i ∈ ((View.whole main_v29).slice (win2_2.rect t)).set ↔ _
  rw [View.set_slice_whole, Rect.mem_set_unit]
  exact Iff.rfl

/-- Every index (r, q) of the result array is in the block of point r / 2000, which is written back:
    2000 · (r / 2000) ≤ r < 2000 · (r / 2000) + 2000, r / 2000 < 50 because r < 100000, and the block has all
    64 columns. -/
theorem scale2_covered (i : S100000x64.Idx) :
    ∃ t : Fin cfg2.N, (cfg2.win 2).flush t = true ∧ i ∈ ((cfg2.win 2).blk t).view.set := by
  have hi0 : (i 0).val < 100000 := idx2_lt0 i
  have hi1 : (i 1).val < 64 := idx2_lt1 i
  have hN : cfg2.N = 50 := N_2
  have ht : (i 0).val / 2000 < cfg2.N := by rw [hN]; omega
  obtain ⟨-, -, -, -, e0, e1⟩ := scale2_block_index ⟨(i 0).val / 2000, ht⟩
  refine ⟨⟨(i 0).val / 2000, ht⟩, flush2_2 _, ?_⟩
  rw [scale2_mem_block]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    rw [e1]
    omega

/-! ## The array after the region -/

/-- After the 50 points the result array holds the row scaling of the two arrays the region found: every point
    wrote back its block of it, and the blocks cover the array. -/
theorem region2_array (c : Dev nD) :
    (dat2 (F := Ideal) V c).arrAt 2 cfg2.N = Cert.Spec.scaleRows (V c main_v27) (V c main_v28) :=
  (dat2 (F := Ideal) V c).arrAt_eq_of_cover 2 (Cert.Spec.scaleRows (V c main_v27) (V c main_v28))
    (fun t _ => scale2_flushed V c t) scale2_covered

end Cert.KernelIdeal.RegionValue

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Dense64Block.lean ====
/-
  One entry of the hidden layer, for a block of rows and for the whole array.

  The hidden layer is relu ((D · A) W + b): row p of the matrix A is multiplied by the p-th entry of a column, the
  scaled matrix is multiplied by the 64 x 64 weight matrix W, the bias row b is added to every row, and every entry is
  clamped below at 0. Entry (p, q) of the result is therefore

      max (∑ k < 64, (A (p, k) · col (p, 0)) · W (k, q) + b (0, q)) 0.

  It depends on row p of A, on entry p of the column, on column q of W and on entry q of b, and on nothing else: in
  particular on no other row of A. This file reads that entry off the two programs: off the value the kernel stores
  for a block of 2000 rows (there A and the column are the block's 2000 rows), and off the specification's host
  operations on all 100000 rows. The two readings are the same formula, which is why the computation can be done
  block of rows by block of rows.
-/
import proofs.«172354_j88639535055109_1_alg».proof.Proof.Gen.KernelIdeal.Skeleton
import proofs.«172354_j88639535055109_1_alg».proof.Proof.Spec
import proofs.«172354_j88639535055109_1_alg».proof.Proof.LibPlainDot
import proofs.«172354_j88639535055109_1_alg».proof.Proof.LibColumn
import Idealize.ShloMosaic.Lib.ValueLayout

noncomputable section

open scoped BigOperators

namespace Cert.KernelIdeal.RegionValue.Dense64

open Idealize.ShloMosaic Idealize.ShloMosaic.ValueIdx Cert.KernelIdeal Cert.KernelIdeal.Facts₀

/-- Entry (p, q) of relu ((rows of a scaled by col) · w + b), for a matrix a of M rows: the sum over the 64 columns k
    of a of (a (p, k) · col (p, 0)) · w (k, q), plus b (0, q), clamped below at the real the zero word encodes. -/
def reluDenseAt {M : Nat} (a : (⟨2, ![M, 64]⟩ : Shape).Idx → EReal) (col : (⟨2, ![M, 1]⟩ : Shape).Idx → EReal)
    (w : (⟨2, ![64, 64]⟩ : Shape).Idx → EReal) (b : (⟨2, ![1, 64]⟩ : Shape).Idx → EReal) (p : Fin M) (q : Fin 64) : EReal :=
  max ((∑ k : Fin 64, (a (ix2 p k) * col (ix2 p (0 : Fin 1))) * w (ix2 k q)) + b (ix2 (0 : Fin 1) q))
    (Ideal.ofBits .f32 0x00000000#32)

/-! ## The value the kernel stores for a block of 2000 rows -/

/-- The kernel's scaled block: row p of the block times entry p of the block's column. The column [2000, 1] is
    repeated along each row, so at (p, k) it is the column at (p, 0). -/
theorem scaledBlock_apply (x0 : FVec Ideal S2000x64 .f32) (x1 : FVec Ideal S2000x1 .f32) (p : Fin 2000) (k : Fin 64) :
    mulf (F := Ideal) (shapeCast S2000x64 x0 shapeCasts_S2000x64_S2000x64)
        (broadcastTo S2000x64 (shapeCast S2000x1 x1 shapeCasts_S2000x1_S2000x1) broadcasts_S2000x1_S2000x64) (ix2 p k)
      = x0 (ix2 p k) * x1 (ix2 p (0 : Fin 1)) := by
  rw [mulf_apply, shapeCast_self, shapeCast_self]
  exact congrArg (fun z => x0 (ix2 p k) * z) (Cert.LibColumn.broadcastTo_a1_ab_apply x1 broadcasts_S2000x1_S2000x64 p k)

/-- THE BLOCK'S ENTRY. The value stored for a block, at row p of the block and column q, is the entry formula of the
    block's own rows: the conversions to bf16 are the identity on the extended reals, the matrix unit's product into a
    zero accumulator is the sum over k, the bias row [1, 64] repeated over the rows is b (0, q) at (p, q). -/
theorem k1_pay1_apply (x0 : FVec Ideal S2000x64 .f32) (x1 : FVec Ideal S2000x1 .f32) (x2 : FVec Ideal S64x64 .f32)
    (x3 : FVec Ideal S1x64 .f32) (p : Fin 2000) (q : Fin 64) :
    Gen.k1_pay1 (F := Ideal) x0 x1 x2 x3 (ix2 p q) = reluDenseAt x0 x1 x2 x3 p q := by
  unfold Gen.k1_pay1 reluDenseAt
  rw [maximumf_apply, addf_apply, broadcast_apply]
  refine congrArg₂ max (congrArg₂ (· + ·) ?_ ?_) rfl
  · refine (Cert.LibPlainDot.matmul_zero_apply (M := 2000) (K := 64) (N := 64) none _ _ p q).trans ?_
    refine Finset.sum_congr rfl fun k _ => ?_
    rw [truncf_apply, truncf_apply]
    exact congrArg (fun z => z * x2 (ix2 k q)) (scaledBlock_apply x0 x1 p k)
  · rw [shapeCast_self]
    exact broadcastTo_1b_ab_apply x3 broadcasts_S1x64_S2000x64 p q

/-! ## The specification's host operations on all 100000 rows -/

section Layout
variable {α : Type}

/-- A column [a, 1] placed in [a, b] on the axes (0, 1) reads, at (p, c), the column at (p, 0): on the second axis
    the column has extent one, so its coordinate there is 0; on the first axis the coordinate p is kept (and if a = 1
    then p = 0 anyway). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row [1, b] placed in [a, b] on the axes (0, 1) reads, at (p, c), the row at (0, c): every row of the result is
    the one row of the operand. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A scalar placed in any shape reads the scalar everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

end Layout

/-- The specification's scaled matrix: entry (r, k) is a (r, k) times entry r of the column. -/
theorem scaleRows_apply (a : Cert.Spec.Arr Cert.ReferenceIdeal.S100000x64) (col : Cert.Spec.Arr Cert.ReferenceIdeal.S100000x1)
    (r : Fin 100000) (k : Fin 64) :
    Cert.Spec.scaleRows a col (ix2 r k) = a (ix2 r k) * col (ix2 r (0 : Fin 1)) := by
  unfold Cert.Spec.scaleRows
  rw [mulf_apply]
  exact congrArg (fun z => a (ix2 r k) * z) (broadcastInDim_a1_ab_apply col _ r k)

/-- THE ARRAY'S ENTRY. The specification at row r and column q is the entry formula of the whole arrays: the host's
    product is the sum over k, the bias row placed on every row is b (0, q), and the scalar 0 placed everywhere is the
    real the zero word encodes. -/
theorem relu64_dense64_apply (a : Cert.Spec.Arr Cert.ReferenceIdeal.S100000x64) (col : Cert.Spec.Arr Cert.ReferenceIdeal.S100000x1)
    (w : Cert.Spec.Arr Cert.ReferenceIdeal.S64x64) (b : Cert.Spec.Arr Cert.ReferenceIdeal.S1x64) (r : Fin 100000) (q : Fin 64) :
    Cert.Spec.relu64 (Cert.Spec.dense64 a col w b) (ix2 r q) = reluDenseAt a col w b r q := by
  unfold Cert.Spec.relu64 Cert.Spec.dense64 reluDenseAt
  rw [maximumf_apply, addf_apply]
  refine congrArg₂ max (congrArg₂ (· + ·) ?_ ?_) ?_
  · refine (Cert.LibPlainDot.dotGeneral_apply (M := 100000) (K := 64) (N := 64) none .single _ _ r q).trans ?_
    refine Finset.sum_congr rfl fun k _ => ?_
    exact congrArg (fun z => z * w (ix2 k q)) (scaleRows_apply a col r k)
  · exact broadcastInDim_1b_ab_apply b _ r q
  · exact broadcastInDim_scalar_apply _ _ _ _

end Cert.KernelIdeal.RegionValue.Dense64

end
-- ==== Proof.Dense64Region.lean ====
/-
  From blocks of 2000 rows to the whole hidden layer.

  The kernel visits 50 grid points. At point t it reads rows 2000 t .. 2000 t + 1999 of the matrix A and of the column,
  the whole weight matrix W and the whole bias row b (their windows are always block (0, 0)), and writes back rows
  2000 t .. 2000 t + 1999 of the output. Entry (p, q) of the block it writes is the entry formula of the block's own
  rows (Dense64Block), and row p of the block of A is row 2000 t + p of A. Entry (r, q) of the hidden layer depends on
  row r of A and on entry r of the column only, so the block written at point t is rows 2000 t .. 2000 t + 1999 of the
  hidden layer computed from the whole arrays. Row r lies in the block of point r / 2000, and 100000 = 50 · 2000, so
  the 50 blocks cover every row: after the last point the output array is the hidden layer.
-/
import proofs.«172354_j88639535055109_1_alg».proof.Proof.Gen.KernelIdeal.Frame
import proofs.«172354_j88639535055109_1_alg».proof.Proof.Spec
import proofs.«172354_j88639535055109_1_alg».proof.Proof.Dense64Block
import Idealize.ShloMosaic.Lib.Pipeline.Value

noncomputable section

open scoped BigOperators

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

namespace Cert.KernelIdeal.RegionValue.Dense64

/-- The kernel's loads and its store are at offset (0, 0) of their staging buffers: they move whole blocks. -/
theorem offsets_zero : (![0, 0] : Fin 2 → Nat) = fun _ => 0 := funext fun a => by fin_cases a <;> rfl

/-- WHICH BLOCK each window is on at grid point t, decided over the 50 points: the matrix, the column and the output are
    on block (t, 0), the t-th block of 2000 rows; the weights and the bias row are always on block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the block of the matrix at point t is row 2000 t + p of the matrix. -/
theorem matrixBlock_apply (c : Dev nD) (t : Fin cfg1.N) (p : Fin 2000) (k : Fin 64) (r : Fin 100000)
    (hr : r.val = 2000 * t.val + p.val) :
    (iblk1 V c 0 t : FVec Ideal S2000x64 .f32) (ix2 p k) = (V c main_v24 : FVec Ideal S100000x64 .f32) (ix2 r k) := by
  obtain ⟨e0, e1, -⟩ := block_indices t
  unfold iblk1
  rw [View.read_apply]
  show V c main_v24 _ = V c main_v24 _
  refine congrArg (V c main_v24) (funext fun a => Fin.ext ?_)
  match a with
  | ⟨0, _⟩ => show win1_0.index t (0 : Fin 2) * 2000 + 1 * p.val = r.val; rw [e0, hr]; omega
  | ⟨1, _⟩ => show win1_0.index t (1 : Fin 2) * 64 + 1 * k.val = k.val; rw [e1]; omega

/-- Entry p of the block of the column at point t is entry 2000 t + p of the column. -/
theorem columnBlock_apply (c : Dev nD) (t : Fin cfg1.N) (p : Fin 2000) (r : Fin 100000)
    (hr : r.val = 2000 * t.val + p.val) :
    (iblk1 V c 1 t : FVec Ideal S2000x1 .f32) (ix2 p (0 : Fin 1))
      = (V c main_v25 : FVec Ideal S100000x1 .f32) (ix2 r (0 : Fin 1)) := by
  obtain ⟨-, -, e2, e3, -⟩ := block_indices t
  unfold iblk1
  rw [View.read_apply]
  show V c main_v25 _ = V c main_v25 _
  refine congrArg (V c main_v25) (funext fun a => Fin.ext ?_)
  match a with
  | ⟨0, _⟩ => show win1_1.index t (0 : Fin 2) * 2000 + 1 * p.val = r.val; rw [e2, hr]; omega
  | ⟨1, _⟩ => show win1_1.index t (1 : Fin 2) * 1 + 1 * (0 : Fin 1).val = (0 : Fin 1).val; rw [e3]; rfl

/-- The block of the weights at any point is the whole weight matrix. -/
theorem weightsBlock_apply (c : Dev nD) (t : Fin cfg1.N) (k : Fin 64) (q : Fin 64) :
    (iblk1 V c 2 t : FVec Ideal S64x64 .f32) (ix2 k q) = (V c main_arg4 : FVec Ideal S64x64 .f32) (ix2 k q) := by
  obtain ⟨-, -, -, -, e4, e5, -⟩ := block_indices t
  unfold iblk1
  rw [View.read_apply]
  show V c main_arg4 _ = V c main_arg4 _
  refine congrArg (V c main_arg4) (funext fun a => Fin.ext ?_)
  match a with
  | ⟨0, _⟩ => show win1_2.index t (0 : Fin 2) * 64 + 1 * k.val = k.val; rw [e4]; omega
  | ⟨1, _⟩ => show win1_2.index t (1 : Fin 2) * 64 + 1 * q.val = q.val; rw [e5]; omega

/-- The block of the bias row at any point is the whole bias row. -/
theorem biasBlock_apply (c : Dev nD) (t : Fin cfg1.N) (q : Fin 64) :
    (iblk1 V c 3 t : FVec Ideal S1x64 .f32) (ix2 (0 : Fin 1) q) = (V c main_v26 : FVec Ideal S1x64 .f32) (ix2 (0 : Fin 1) q) := by
  obtain ⟨-, -, -, -, -, -, e6, e7, -⟩ := block_indices t
  unfold iblk1
  rw [View.read_apply]
  show V c main_v26 _ = V c main_v26 _
  refine congrArg (V c main_v26) (funext fun a => Fin.ext ?_)
  match a with
  | ⟨0, _⟩ => show win1_3.index t (0 : Fin 2) * 1 + 1 * (0 : Fin 1).val = (0 : Fin 1).val; rw [e6]; rfl
  | ⟨1, _⟩ => show win1_3.index t (1 : Fin 2) * 64 + 1 * q.val = q.val; rw [e7]; omega

/-- THE BLOCK IS ROWS OF THE HIDDEN LAYER. Entry (p, q) of the value stored at point t is entry (2000 t + p, q) of the
    hidden layer of the whole arrays: both are the entry formula, of the block's rows on the left and of the whole
    arrays on the right, and the block's row p is the arrays' row 2000 t + p. -/
theorem blockEntry_eq (c : Dev nD) (t : Fin cfg1.N) (p : Fin 2000) (q : Fin 64) (r : Fin 100000)
    (hr : r.val = 2000 * t.val + p.val) :
    Gen.k1_pay1 (F := Ideal) (iblk1 V c 0 t) (iblk1 V c 1 t) (iblk1 V c 2 t) (iblk1 V c 3 t) (ix2 p q)
      = Cert.Spec.relu64 (Cert.Spec.dense64 (V c main_v24) (V c main_v25) (V c main_arg4) (V c main_v26)) (ix2 r q) := by
  refine (k1_pay1_apply (iblk1 V c 0 t) (iblk1 V c 1 t) (iblk1 V c 2 t) (iblk1 V c 3 t) p q).trans ?_
  refine Eq.trans ?_ (relu64_dense64_apply (V c main_v24) (V c main_v25) (V c main_arg4) (V c main_v26) r q).symm
  unfold reluDenseAt
  refine congrArg₂ max (congrArg₂ (· + ·) (Finset.sum_congr rfl fun k _ => ?_) ?_) rfl
  · exact congrArg₂ (· * ·) (congrArg₂ (· * ·) (matrixBlock_apply V c t p k r hr) (columnBlock_apply V c t p r hr))
      (weightsBlock_apply V c t k q)
  · exact biasBlock_apply V c t q

/-- WHAT POINT t WRITES BACK is rows 2000 t .. 2000 t + 1999 of the hidden layer of the whole arrays. -/
theorem flushed_eq_hiddenBlock (c : Dev nD) (t : Fin cfg1.N) :
    (dat1 (F := Ideal) V c).flushed 4 t = ((cfg1.win 4).blk t).view.read (Elt Ideal)
      (Cert.Spec.relu64 (Cert.Spec.dense64 (V c main_v24) (V c main_v25) (V c main_arg4) (V c main_v26))) := by
  show (cfg1.win 4).cut (grid1.coords t) ((dat1 V c).after 4 t) = _
  rw [after1_4]
  unfold out1_4
  rw [View.canon_unit_zero offsets_zero]
  simp only [View.ld_unit_zero (S := S2000x64) offsets_zero, View.ld_unit_zero (S := S2000x1) offsets_zero,
    View.ld_unit_zero (S := S64x64) offsets_zero, View.ld_unit_zero (S := S1x64) offsets_zero]
  funext j
  obtain ⟨p, q, rfl⟩ : ∃ (p : Fin 2000) (q : Fin 64), j = ix2 p q := ⟨j 0, j 1, eq_ix2 (n0 := 2000) (n1 := 64) j⟩
  have ht : t.val < 50 := lt_of_lt_of_eq t.isLt (show cfg1.N = 50 from N_1)
  obtain ⟨-, -, -, -, -, -, -, -, e8, e9⟩ := block_indices t
  have hemb : ((cfg1.win 4).blk t).view.emb (ix2 p q) = ix2 (⟨2000 * t.val + p.val, by omega⟩ : Fin 100000) q := by
    funext a; apply Fin.ext
    match a with
    | ⟨0, _⟩ => show win1_4.index t (0 : Fin 2) * 2000 + 1 * p.val = 2000 * t.val + p.val; rw [e8]; omega
    | ⟨1, _⟩ => show win1_4.index t (1 : Fin 2) * 64 + 1 * q.val = q.val; rw [e9]; omega
  show Gen.k1_pay1 (F := Ideal) (iblk1 V c 0 t) (iblk1 V c 1 t) (iblk1 V c 2 t) (iblk1 V c 3 t) (ix2 p q)
    = Cert.Spec.relu64 (Cert.Spec.dense64 (V c main_v24) (V c main_v25) (V c main_arg4) (V c main_v26))
        (((cfg1.win 4).blk t).view.emb (ix2 p q))
  rw [hemb]
  exact blockEntry_eq V c t p q _ rfl

/-- An index of the output array is in point t's block iff each coordinate is in the block's range on its axis. -/
theorem mem_outputBlock (t : Fin cfg1.N) (i : S100000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v27).slice (win1_4.rect t)).set ↔ _
  rw [View.set_slice_whole, Rect.mem_set_unit]
  exact Iff.rfl

/-- EVERY ROW IS WRITTEN: row r is in the block of point r / 2000, which is below 50 because r < 100000 = 50 · 2000. -/
theorem rows_covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, e8, e9⟩ := block_indices t
  refine ⟨t, flush1_4 t, ?_⟩
  rw [mem_outputBlock]
  intro a
  match a with
  | ⟨0, _⟩ =>
    show win1_4.index t (0 : Fin 2) * 2000 ≤ (i 0).val ∧ (i 0).val < win1_4.index t (0 : Fin 2) * 2000 + 2000
    rw [e8, ht]; omega
  | ⟨1, _⟩ =>
    show win1_4.index t (1 : Fin 2) * 64 ≤ (i 1).val ∧ (i 1).val < win1_4.index t (1 : Fin 2) * 64 + 64
    rw [e9]; omega

end Cert.KernelIdeal.RegionValue.Dense64

namespace Cert.KernelIdeal.RegionValue

/-- THE OUTPUT ARRAY after the 50 points is the hidden layer of the arrays the region found: every point writes back its
    rows of that one array, and the points' blocks cover all 100000 rows. -/
theorem region1_array (c : Dev nD) :
    (dat1 (F := Ideal) V c).arrAt 4 cfg1.N
      = Cert.Spec.relu64 (Cert.Spec.dense64 (V c main_v24) (V c main_v25) (V c main_arg4) (V c main_v26)) :=
  (dat1 (F := Ideal) V c).arrAt_eq_of_cover 4 _ (fun t _ => Dense64.flushed_eq_hiddenBlock V c t) Dense64.rows_covered

end Cert.KernelIdeal.RegionValue

end
-- ==== Proof.Dense10Block.lean ====
/-
  One block of the output layer, read at one entry.

  At a grid point the body of the fourth kernel holds a block of 2000 rows of the node features, x0 [2000, 64], the
  same 2000 rows of the scaling column, x1 [2000, 1], the whole weight matrix x2 [64, 10] and the bias row x3 [1, 10].
  It multiplies row p of x0 by the entry (p, 0) of x1, rounds the scaled block and the weights to bf16 (the identity
  on the extended reals), takes their matrix product into a zero accumulator and adds the bias row to every row.
  So the entry (p, q) of what it stores is
      (∑ k < 64, (x0 (p, k) · x1 (p, 0)) · x2 (k, q)) + x3 (0, q).
  It depends on row p of the two row blocks only, on column q of the weights and on entry q of the bias: no entry of
  a block reads a row of another block, which is why the computation can be cut into blocks of rows at all.
-/
import proofs.«172354_j88639535055109_1_alg».proof.Proof.Gen.KernelIdeal.Skeleton
import proofs.«172354_j88639535055109_1_alg».proof.Proof.LibPlainDot
import proofs.«172354_j88639535055109_1_alg».proof.Proof.LibColumn
import Idealize.ShloMosaic.Lib.ValueLayout
import Idealize.ShloMosaic.Lib.Pipeline.Value

noncomputable section

open scoped BigOperators

namespace Cert.KernelIdeal.RegionValue.Dense10

open Idealize.ShloMosaic Idealize.ShloMosaic.ValueIdx Cert.KernelIdeal Cert.KernelIdeal.Gen

/-- The dimension numbers the kernel's product is printed with list the axes of the plain product of a [2000, 64]
    by a [64, 10] matrix: contract the left operand's columns against the right operand's rows, no batch axis. -/
theorem dot_eq_plain : dot_S2000x64_S64x10_S2000x10_1_0_0_1_n_n = DotDims.plain 2000 64 10 := rfl

/-- The scaled block at (p, k): the feature (p, k) times the row's scaling factor, the column's entry (p, 0). The
    two casts to the shape the operand already has change nothing, and the column is repeated along each row. -/
theorem scaled_block_apply (x0 : FVec Ideal S2000x64 .f32) (x1 : FVec Ideal S2000x1 .f32) (p : Fin 2000) (k : Fin 64) :
    mulf (F := Ideal) (shapeCast S2000x64 x0 Facts₀.shapeCasts_S2000x64_S2000x64)
        (broadcastTo S2000x64 (shapeCast S2000x1 x1 Facts₀.shapeCasts_S2000x1_S2000x1) Facts₀.broadcasts_S2000x1_S2000x64) (ix2 p k)
      = x0 (ix2 p k) * x1 (ix2 p (0 : Fin 1)) := by
  rw [mulf_apply, shapeCast_self, shapeCast_self]
  exact congrArg (fun z => x0 (ix2 p k) * z) (Cert.LibColumn.broadcastTo_a1_ab_apply x1 _ p k)

/-- The bias row repeated on every row of the block, at (p, q): the row's entry (0, q). -/
theorem bias_block_apply (x3 : FVec Ideal S1x10 .f32) (p : Fin 2000) (q : Fin 10) :
    broadcastTo S2000x10 (shapeCast S1x10 x3 Facts₀.shapeCasts_S1x10_S1x10) Facts₀.broadcasts_S1x10_S2000x10 (ix2 p q)
      = x3 (ix2 (0 : Fin 1) q) := by
  rw [shapeCast_self]
  exact broadcastTo_1b_ab_apply x3 _ p q

/-- THE BLOCK AT AN ENTRY. What the body stores, at (p, q): the sum over the 64 features k of the scaled feature
    (p, k) times the weight (k, q), plus the bias q. The accumulator the product starts from is the zero word, which
    denotes 0; the roundings to bf16 are the identity on the extended reals. -/
theorem dense10_block_apply (x0 : Vec Ideal S2000x64 .f32) (x1 : Vec Ideal S2000x1 .f32) (x2 : Vec Ideal S64x10 .f32)
    (x3 : Vec Ideal S1x10 .f32) (p : Fin 2000) (q : Fin 10) :
    k3_pay1 (F := Ideal) x0 x1 x2 x3 (ix2 p q)
      = (∑ k : Fin 64, (x0 (ix2 p k) * x1 (ix2 p (0 : Fin 1))) * x2 (ix2 k q)) + x3 (ix2 (0 : Fin 1) q) := by
  unfold k3_pay1
  rw [addf_apply, bias_block_apply, dot_eq_plain]
  refine congrArg (fun z => z + x3 (ix2 (0 : Fin 1) q)) ?_
  refine (Cert.LibPlainDot.matmul_zero_apply none _ _ p q).trans ?_
  refine Finset.sum_congr rfl fun k _ => ?_
  rw [truncf_apply, truncf_apply, scaled_block_apply]

end Cert.KernelIdeal.RegionValue.Dense10

end
-- ==== Proof.Dense10Entry.lean ====
/-
  The output layer of the specification, read at one entry.

  The specification's output layer is a function of four whole arrays: the node features a [100000, 64], the
  scaling column col [100000, 1], the weights w [64, 10] and the bias row b [1, 10]. It multiplies row r of a by the
  entry (r, 0) of col, multiplies the scaled matrix by w and adds b to every row. At the entry (r, q) this is
      (∑ k < 64, (a (r, k) · col (r, 0)) · w (k, q)) + b (0, q):
  the entry reads row r of a and of col, column q of w and entry q of b, and nothing else. A block of rows of the
  result is therefore computed from the same block of rows of a and col.
-/
import proofs.«172354_j88639535055109_1_alg».proof.Proof.Spec
import proofs.«172354_j88639535055109_1_alg».proof.Proof.LibPlainDot
import Idealize.ShloMosaic.Lib.Pipeline.Value

noncomputable section

open scoped BigOperators

namespace Cert.Spec.Dense10

open Idealize.ShloMosaic Idealize.ShloMosaic.ValueIdx Cert.ReferenceIdeal Cert.ReferenceIdeal.Facts₀

section Layout
variable {α : Type}

/-- A column [a, 1] sent to [a, b] with its axes kept in place reads, at (p, c), the column at (p, 0): the first
    axis keeps its coordinate p (and if a = 1 then p = 0 anyway), the second has one coordinate, 0. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row [1, b] sent to [a, b] with its axes kept in place reads, at (p, c), the row at (0, c): the first axis has
    one coordinate, 0, the second keeps its coordinate c (and if b = 1 then c = 0 anyway). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Layout

/-- The scaled matrix at (r, k): the feature (r, k) times the entry (r, 0) of the column. -/
theorem scaleRows_apply (x : Arr S100000x64) (col : Arr S100000x1) (r : Fin 100000) (k : Fin 64) :
    scaleRows x col (ix2 r k) = x (ix2 r k) * col (ix2 r (0 : Fin 1)) := by
  unfold scaleRows
  rw [mulf_apply]
  exact congrArg (fun z => x (ix2 r k) * z) (broadcastInDim_a1_ab_apply col _ r k)

/-- The dimension numbers of the host's product list the axes of the plain product of a [100000, 64] by a [64, 10]
    matrix. -/
theorem dot_eq_plain : dot_S100000x64_S64x10_S100000x10_1_0_0_1_n_n = DotDims.plain 100000 64 10 := rfl

/-- THE OUTPUT LAYER AT AN ENTRY: the sum over the 64 features k of the scaled feature (r, k) times the weight
    (k, q), plus the bias q. -/
theorem dense10_apply (a : Arr S100000x64) (col : Arr S100000x1) (w : Arr S64x10) (b : Arr S1x10)
    (r : Fin 100000) (q : Fin 10) :
    dense10 a col w b (ix2 r q)
      = (∑ k : Fin 64, (a (ix2 r k) * col (ix2 r (0 : Fin 1))) * w (ix2 k q)) + b (ix2 (0 : Fin 1) q) := by
  unfold dense10
  rw [addf_apply, dot_eq_plain]
  refine congrArg₂ (fun y z => y + z) ?_ (broadcastInDim_1b_ab_apply b _ r q)
  refine (Cert.LibPlainDot.dotGeneral_apply none .single _ _ r q).trans ?_
  exact Finset.sum_congr rfl fun k _ => congrArg (fun z => z * w (ix2 k q)) (scaleRows_apply a col r k)

end Cert.Spec.Dense10

end
-- ==== Proof.Dense10Region.lean ====
/-
  The output layer, from blocks of rows to the whole array.

  The fourth kernel runs over 50 grid points. Point t holds rows 2000 t … 2000 t + 1999 of the node features
  [100000, 64] and of the scaling column [100000, 1], the whole weights [64, 10] and the whole bias row [1, 10], and
  writes back rows 2000 t … 2000 t + 1999 of the result [100000, 10]. An entry (r, q) of the output layer reads
  only row r of the features and of the column (beside column q of the weights and entry q of the bias), so the
  rows 2000 t … 2000 t + 1999 of the output layer of the whole arrays are the body's function of the blocks point t
  holds. Every row r lies in exactly the block of point r / 2000, so the 50 write-backs leave the whole output layer.
-/
import proofs.«172354_j88639535055109_1_alg».proof.Proof.Gen.KernelIdeal.Frame
import proofs.«172354_j88639535055109_1_alg».proof.Proof.Spec
import proofs.«172354_j88639535055109_1_alg».proof.Proof.Dense10Block
import proofs.«172354_j88639535055109_1_alg».proof.Proof.Dense10Entry
import Idealize.ShloMosaic.Lib.Pipeline.Value

set_option maxRecDepth 16384

noncomputable section

open scoped BigOperators

namespace Cert.KernelIdeal.RegionValue

open Idealize.ShloMosaic Idealize.ShloMosaic.TcCoe Idealize.SL.Sem Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b))

namespace Dense10

/-- The offsets (0, 0) of a load or store of a whole staging buffer are the zero offsets. -/
theorem zero_offsets : (![0, 0] : Fin 2 → Nat) = fun _ => 0 := funext fun a => by fin_cases a <;> rfl

/-! ## Which block each window holds at a point -/

/-- The printed index maps, decided once over the 50 points: at point t the features, the scaling column and the
    result are at block (t, 0); the weights and the bias row are always at block (0, 0). -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- A block's entry sits in its array, on each axis, at the block index times the block's extent plus the coordinate
    inside the block. For the features: entry (p, k) of block t is the array's entry (2000 t + p, k). -/
theorem features_window_apply (c : Dev nD) (t : Fin cfg3.N) (p : Fin 2000) (k : Fin 64) (r : Fin 100000)
    (hr : r.val = 2000 * t.val + p.val) :
    (iblk3 V c 0 t : Vec Ideal S2000x64 .f32) (ix2 p k) = V c main_v39 (ix2 r k) := by
  obtain ⟨e0, e1, -⟩ := block_indices t
  unfold iblk3
  rw [View.read_apply]
  show V c main_v39 _ = V c main_v39 _
  refine congrArg (V c main_v39) ?_
  funext a
  apply Fin.ext
  match a with
  | ⟨0, _⟩ => show win3_0.index t 0 * 2000 + 1 * p.val = r.val; rw [e0, hr]; omega
  | ⟨1, _⟩ => show win3_0.index t 1 * 64 + 1 * k.val = k.val; rw [e1]; omega

/-- For the scaling column: entry (p, 0) of block t is the array's entry (2000 t + p, 0). -/
theorem column_window_apply (c : Dev nD) (t : Fin cfg3.N) (p : Fin 2000) (u : Fin 1) (r : Fin 100000)
    (hr : r.val = 2000 * t.val + p.val) :
    (iblk3 V c 1 t : Vec Ideal S2000x1 .f32) (ix2 p u) = V c main_v40 (ix2 r u) := by
  obtain ⟨-, -, e0, e1, -⟩ := block_indices t
  unfold iblk3
  rw [View.read_apply]
  show V c main_v40 _ = V c main_v40 _
  refine congrArg (V c main_v40) ?_
  funext a
  apply Fin.ext
  match a with
  | ⟨0, _⟩ => show win3_1.index t 0 * 2000 + 1 * p.val = r.val; rw [e0, hr]; omega
  | ⟨1, _⟩ => show win3_1.index t 1 * 1 + 1 * u.val = u.val; rw [e1]; omega

/-- The weights' one block is the whole array, at every point. -/
theorem weights_window_apply (c : Dev nD) (t : Fin cfg3.N) (k : Fin 64) (q : Fin 10) :
    (iblk3 V c 2 t : Vec Ideal S64x10 .f32) (ix2 k q) = V c main_arg6 (ix2 k q) := by
  obtain ⟨-, -, -, -, e0, e1, -⟩ := block_indices t
  unfold iblk3
  rw [View.read_apply]
  show V c main_arg6 _ = V c main_arg6 _
  refine congrArg (V c main_arg6) ?_
  funext a
  apply Fin.ext
  match a with
  | ⟨0, _⟩ => show win3_2.index t 0 * 64 + 1 * k.val = k.val; rw [e0]; omega
  | ⟨1, _⟩ => show win3_2.index t 1 * 10 + 1 * q.val = q.val; rw [e1]; omega

/-- The bias row's one block is the whole row, at every point. -/
theorem bias_window_apply (c : Dev nD) (t : Fin cfg3.N) (u : Fin 1) (q : Fin 10) :
    (iblk3 V c 3 t : Vec Ideal S1x10 .f32) (ix2 u q) = V c main_v41 (ix2 u q) := by
  obtain ⟨-, -, -, -, -, -, e0, e1, -⟩ := block_indices t
  unfold iblk3
  rw [View.read_apply]
  show V c main_v41 _ = V c main_v41 _
  refine congrArg (V c main_v41) ?_
  funext a
  apply Fin.ext
  match a with
  | ⟨0, _⟩ => show win3_3.index t 0 * 1 + 1 * u.val = u.val; rw [e0]; omega
  | ⟨1, _⟩ => show win3_3.index t 1 * 10 + 1 * q.val = q.val; rw [e1]; omega

/-- Entry (p, q) of the result's block t is the array's entry (2000 t + p, q). -/
theorem result_window_emb (t : Fin cfg3.N) (p : Fin 2000) (q : Fin 10) (r : Fin 100000)
    (hr : r.val = 2000 * t.val + p.val) :
    ((cfg3.win 4).blk t).view.emb (ix2 p q) = (ix2 r q : S100000x10.Idx) := by
  obtain ⟨-, -, -, -, -, -, -, -, e0, e1⟩ := block_indices t
  funext a
  apply Fin.ext
  match a with
  | ⟨0, _⟩ => show win3_4.index t 0 * 2000 + 1 * p.val = r.val; rw [e0, hr]; omega
  | ⟨1, _⟩ => show win3_4.index t 1 * 10 + 1 * q.val = q.val; rw [e1]; omega

/-! ## What a point writes back -/

/-- THE BLOCK OF THE OUTPUT LAYER. At point t the body's function of the blocks it holds is, entry by entry, rows
    2000 t … 2000 t + 1999 of the output layer of the whole arrays: both are the sum over the 64 features k of
    (feature (2000 t + p, k) · column (2000 t + p, 0)) · weight (k, q), plus the bias q. -/
theorem body_block_eq (c : Dev nD) (t : Fin cfg3.N) (p : Fin 2000) (q : Fin 10) (r : Fin 100000)
    (hr : r.val = 2000 * t.val + p.val) :
    k3_pay1 (F := Ideal) (iblk3 V c 0 t) (iblk3 V c 1 t) (iblk3 V c 2 t) (iblk3 V c 3 t) (ix2 p q)
      = Cert.Spec.dense10 (V c main_v39) (V c main_v40) (V c main_arg6) (V c main_v41) (ix2 r q) := by
  refine (dense10_block_apply (iblk3 V c 0 t) (iblk3 V c 1 t) (iblk3 V c 2 t) (iblk3 V c 3 t) p q).trans ?_
  refine Eq.trans ?_ (Cert.Spec.Dense10.dense10_apply (V c main_v39) (V c main_v40) (V c main_arg6) (V c main_v41) r q).symm
  refine congrArg₂ (fun y z => y + z) (Finset.sum_congr rfl fun k _ => ?_) (bias_window_apply V c t 0 q)
  exact congrArg₂ (fun y z => y * z)
    (congrArg₂ (fun y z => y * z) (features_window_apply V c t p k r hr) (column_window_apply V c t p 0 r hr))
    (weights_window_apply V c t k q)

/-- WHAT POINT t WRITES BACK is block t of the output layer of the arrays as the region finds them. The body's one
    store fills the staging buffer with its function of the four loaded blocks; the write-back moves the whole
    buffer. -/
theorem flushed_block_eq (c : Dev nD) (t : Fin cfg3.N) :
    (dat3 (F := Ideal) V c).flushed 4 t
      = ((cfg3.win 4).blk t).view.read (Elt Ideal)
          (Cert.Spec.dense10 (V c main_v39) (V c main_v40) (V c main_arg6) (V c main_v41)) := by
  show (cfg3.win 4).cut (grid3.coords t) ((dat3 V c).after 4 t) = _
  rw [after3_4]
  unfold out3_4
  rw [View.canon_unit_zero zero_offsets]
  simp only [View.ld_unit_zero (S := S2000x64) zero_offsets, View.ld_unit_zero (S := S2000x1) zero_offsets,
    View.ld_unit_zero (S := S64x10) zero_offsets, View.ld_unit_zero (S := S1x10) zero_offsets]
  funext j
  obtain ⟨p, q, rfl⟩ : ∃ (p : Fin 2000) (q : Fin 10), j = ix2 p q := ⟨j 0, j 1, eq_ix2 j⟩
  have hp : p.val < 2000 := p.isLt
  have ht : t.val < 50 := Nat.lt_of_lt_of_eq t.isLt (show cfg3.N = 50 from N_3)
  show k3_pay1 (F := Ideal) (iblk3 V c 0 t) (iblk3 V c 1 t) (iblk3 V c 2 t) (iblk3 V c 3 t) (ix2 p q)
      = Cert.Spec.dense10 (V c main_v39) (V c main_v40) (V c main_arg6) (V c main_v41)
          (((cfg3.win 4).blk t).view.emb (ix2 p q))
  exact (body_block_eq V c t p q ⟨2000 * t.val + p.val, by omega⟩ rfl).trans
    (congrArg (Cert.Spec.dense10 (V c main_v39) (V c main_v40) (V c main_arg6) (V c main_v41))
      (result_window_emb t p q ⟨2000 * t.val + p.val, by omega⟩ rfl).symm)

/-! ## The blocks tile the result -/

/-- An entry of the result is in point t's block iff each coordinate is in the block's range on its axis. -/
theorem mem_result_block (t : Fin cfg3.N) (i : S100000x10.Idx) :
    i ∈ ((cfg3.win 4).blk t).view.set
      ↔ ∀ a : Fin 2, win3_4.index t a * S2000x10.size a ≤ (i a).val
          ∧ (i a).val < win3_4.index t a * S2000x10.size a + S2000x10.size a := by
  show i ∈ ((View.whole main_v42).slice (win3_4.rect t)).set ↔ _
  rw [View.set_slice_whole, Rect.mem_set_unit]
  exact Iff.rfl

/-- Row r of the result is in the block of point r / 2000, which is written back (every point's block is). -/
theorem result_covered (i : S100000x10.Idx) :
    ∃ t : Fin cfg3.N, (cfg3.win 4).flush t = true ∧ i ∈ ((cfg3.win 4).blk t).view.set := by
  have hi0 : (i 0).val < 100000 := (i 0).isLt
  have hi1 : (i 1).val < 10 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, -, -, e0, e1⟩ := block_indices t
  refine ⟨t, flush3_4 t, ?_⟩
  rw [mem_result_block]
  intro a
  match a with
  | ⟨0, _⟩ =>
    show win3_4.index t 0 * 2000 ≤ (i 0).val ∧ (i 0).val < win3_4.index t 0 * 2000 + 2000
    rw [e0, ht]; omega
  | ⟨1, _⟩ =>
    show win3_4.index t 1 * 10 ≤ (i 1).val ∧ (i 1).val < win3_4.index t 1 * 10 + 10
    rw [e1]; omega

end Dense10

/-! ## The array after the region -/

/-- THE RESULT ARRAY after the 50 write-backs is the output layer of the arrays the region found: every point
    writes its block of it, and the blocks cover every row. -/
theorem region3_array (c : Dev nD) :
    (dat3 (F := Ideal) V c).arrAt 4 cfg3.N
      = Cert.Spec.dense10 (V c main_v39) (V c main_v40) (V c main_arg6) (V c main_v41) :=
  (dat3 (F := Ideal) V c).arrAt_eq_of_cover 4 _ (fun t _ => Dense10.flushed_block_eq V c t) Dense10.result_covered

end Cert.KernelIdeal.RegionValue

end
-- ==== Proof.lean ====
/-
  A two-layer graph convolution with a per-graph mean: the tiled program equals the reference on the extended reals.

  Both programs compute the same chain of stages: the degree factors (clamped below by 1, to the power -1/2);
  per layer, the rows scaled by the out-degree factor, summed along the edges, scaled by the in-degree factor,
  multiplied by the weights, plus the bias (the first layer clamped at 0); and the mean of the second layer's rows
  over the nodes of each graph. The counts, the sum along the edges and the mean are the same host operations in
  both. The tiled program computes the row scalings and the two dense layers in four regions, 2000 rows at a
  time; row r of each result depends on row r of the inputs only (and on the whole weight matrix and bias), so
  the blocks written by the 50 grid points are the restrictions of the whole-array stage, and they tile the rows.
  The casts to a 16-bit format before the products are the identity on the extended reals, the product into a zero
  accumulator is the plain sum over the contracted axis, and no law of arithmetic is needed beyond that: the two
  results are the same function of the arguments, term by term, so the precondition is not used.

  `frame` claims: the generated frames for the two tiled programs; for the reference its run with the result dropped.
  `preserves`: the idealization rewrote nothing, so there is nothing to state.
  `algebraic`: both runs end with the result at the model function `Cert.Spec.model` of the arguments.
-/
import proofs.«172354_j88639535055109_1_alg».proof.Defs
import proofs.«172354_j88639535055109_1_alg».proof.Proof.Gen.Kernel
import proofs.«172354_j88639535055109_1_alg».proof.Proof.Gen.Kernel.Skeleton
import proofs.«172354_j88639535055109_1_alg».proof.Proof.Gen.Kernel.Launch
import proofs.«172354_j88639535055109_1_alg».proof.Proof.Gen.Kernel.Points
import proofs.«172354_j88639535055109_1_alg».proof.Proof.Gen.Kernel.Frame
import proofs.«172354_j88639535055109_1_alg».proof.Proof.Gen.KernelIdeal
import proofs.«172354_j88639535055109_1_alg».proof.Proof.Gen.KernelIdeal.Skeleton
import proofs.«172354_j88639535055109_1_alg».proof.Proof.Gen.KernelIdeal.Launch
import proofs.«172354_j88639535055109_1_alg».proof.Proof.Gen.KernelIdeal.Points
import proofs.«172354_j88639535055109_1_alg».proof.Proof.Gen.KernelIdeal.Frame
import proofs.«172354_j88639535055109_1_alg».proof.Proof.Gen.ReferenceIdeal
import proofs.«172354_j88639535055109_1_alg».proof.Proof.Gen.Pre_finite_inputs
import proofs.«172354_j88639535055109_1_alg».proof.Proof.Gen.ReferenceIdeal.Run
import proofs.«172354_j88639535055109_1_alg».proof.Proof.ValueRun
import proofs.«172354_j88639535055109_1_alg».proof.Proof.Chain
import proofs.«172354_j88639535055109_1_alg».proof.Proof.RefModel
import proofs.«172354_j88639535055109_1_alg».proof.Proof.ScaleRegion0
import proofs.«172354_j88639535055109_1_alg».proof.Proof.ScaleRegion2
import proofs.«172354_j88639535055109_1_alg».proof.Proof.Dense64Region
import proofs.«172354_j88639535055109_1_alg».proof.Proof.Dense10Region
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The four regions' output arrays, each a dense stage of the model of the arrays the region reads. -/
theorem regionArrays : Cert.KernelIdeal.Chain.RegionArrays :=
  ⟨Cert.KernelIdeal.RegionValue.region0_array, Cert.KernelIdeal.RegionValue.region1_array,
   Cert.KernelIdeal.RegionValue.region2_array, Cert.KernelIdeal.RegionValue.region3_array⟩

/-- Both programs, run from memories that agree on the arguments, end with the result at the model of the
    arguments: the tiled program by reading its result back through its nine segments, the reference because its
    composed term is the model by unfolding. -/
theorem algebraic : Cert.algebraic_KernelIdeal_ReferenceIdeal := by
  intro m ρ m' ρ' _ hagree
  refine ⟨fun c => Cert.Spec.model
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.result regionArrays m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.RefValue.result_eq_model, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
   frame_kernel, frame_kernelIdeal, frame_referenceIdeal, preserves, algebraic⟩

end Cert.Proof

end
